-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S3072 : Shape := ⟨1, ![3072]⟩
abbrev S16384x1024 : Shape := ⟨2, ![16384, 1024]⟩
abbrev S1x3072 : Shape := ⟨2, ![1, 3072]⟩
abbrev S1x512x1024 : Shape := ⟨3, ![1, 512, 1024]⟩
abbrev S1x4096x1024 : Shape := ⟨3, ![1, 4096, 1024]⟩
abbrev S512x1024 : Shape := ⟨2, ![512, 1024]⟩
abbrev S4096x1024 : Shape := ⟨2, ![4096, 1024]⟩
abbrev S512x4096 : Shape := ⟨2, ![512, 4096]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S16384x1024, .f32⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S4x4096x1024, .bf16⟩
  | .hbm, ⟨21, _⟩ => ⟨S4x4096x1024, .bf16⟩
  | .hbm, ⟨22, _⟩ => ⟨S4x4096x1024, .bf16⟩
  | .hbm, ⟨23, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x4096x1024, .bf16⟩
  | .local _ .vmem, ⟨13, _⟩ => ⟨S1x4096x1024, .bf16⟩
  | .local _ .vmem, ⟨14, _⟩ => ⟨S1x512x1024, .f32⟩
  | .local _ .vmem, ⟨15, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  shapeCasts_S16384x1024_S4x4096x1024 : S16384x1024.ShapeCasts S4x4096x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  reduces_S512x4096_S512 : S512x4096.Reduces [1] S512
  shapeCasts_S512_S512x1 : S512.ShapeCasts S512x1
  broadcasts_S512x1_S512x4096 : S512x1.Broadcasts S512x4096
  shapeCasts_S512x1024_S1x512x1024 : S512x1024.ShapeCasts S1x512x1024
  dot_S1024x1024_S1024x3072_S1024x3072_1_0_0_1_n_n_wf : DotDims.WF S1024x1024 S1024x3072 S1024x3072 [1] [0] [0] [1] [] []
  dot_S512x1024_S4096x1024_S512x4096_1_1_0_0_n_n_wf : DotDims.WF S512x1024 S4096x1024 S512x4096 [1] [1] [0] [0] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S4x4096x1024.size a
  hwx1_1 : ∀ i : grid1.Coords, EltTy.bits .bf16 = 32 ∨ (Rect.block (s := S4x4096x1024) S1x4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S4x4096x1024.size a
  hwx1_2 : ∀ i : grid1.Coords, EltTy.bits .bf16 = 32 ∨ (Rect.block (s := S4x4096x1024) S1x4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.QkvRegion.lean ====
/-
  The projection region (the first pallas_call) on one core, at any float instance and at any buffer contents V found on
  entry. Grid point t reads row block t of the flattened activations [16384, 1024] (1024 rows), the whole concatenated
  weight [1024, 3072] and the whole concatenated bias [3072], and stores the three column thirds of
  x · W + bias into row block t of the three outputs. The body is one straight line of whole-block loads and stores, so what
  it leaves in each output's staging buffer is a single stored piece covering the buffer; the inputs' staging buffers hold
  the blocks read off V whether or not the pipeline refetched them at t (the weight and the bias are fetched once).
-/
import proofs.«151214_j36215164240477_2_alg».proof.Proof.Gen.KernelIdeal.Launch
import proofs.«151214_j36215164240477_2_alg».proof.Proof.Gen.KernelIdeal.Skeleton
import proofs.«151214_j36215164240477_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, read off the entry contents -/

/-- Window w's block at grid point t. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, refetched there or not. -/
theorem qkv_before_x_of {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)
theorem qkv_before_w_of {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)
theorem qkv_before_b_of {c : Dev nD} (dat : Dat τ (Elt F) Unit ℕ (UR sig nD τ) ℕ cfg0 c) (hA : dat.A 2 = V c (Pipeline.arrRef spec0 2))
    (hafter : ∀ t, dat.after 2 t = qkvBlk V c 2 t) (t : Fin cfg0.N) (d) : dat.before 2 t d = qkvBlk V c 2 t :=
  (dat.before_in_eq_fetched 2 rfl (fun _ => rfl) (fun _ _ _ => rfl) (fun t => by rw [hafter]; unfold Dat.blockOf qkvBlk; rw [hA]; try rfl) t d).trans
    (by unfold Dat.fetched Dat.blockOf qkvBlk; rw [hA]; try rfl)

/-! ## The body's accesses: each one the whole staging buffer -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each output's staging buffer -/

/-- The query third: columns [0, 1024) of x · W + bias. -/
def qkvStoredQ (x : Vec F S1024x1024 .f32) (w : Vec F S1024x3072 .bf16) (b : Vec F S3072 .f32) : Vec F S1024x1024 .bf16 :=
  View.canon [⟨rX, k0_pay2 (View.ld x rX) (View.ld w rW) (View.ld b rB)⟩]
/-- The key third: columns [1024, 2048). -/
def qkvStoredK (x : Vec F S1024x1024 .f32) (w : Vec F S1024x3072 .bf16) (b : Vec F S3072 .f32) : Vec F S1024x1024 .bf16 :=
  View.canon [⟨rX, k0_pay3 (View.ld x rX) (View.ld w rW) (View.ld b rB)⟩]
/-- The value third: columns [2048, 3072). -/
def qkvStoredV (x : Vec F S1024x1024 .f32) (w : Vec F S1024x3072 .bf16) (b : Vec F S3072 .f32) : Vec F S1024x1024 .bf16 :=
  View.canon [⟨rX, k0_pay4 (View.ld x rX) (View.ld w rW) (View.ld b rB)⟩]

/-- One whole-buffer store covers the buffer. -/
theorem qkv_cover (p0 : Vec F S1024x1024 .bf16) (y : S1024x1024.Idx) :
    ∃ pc ∈ ([⟨rX, p0⟩] : List (View.Piece (Elt F) S1024x1024 .bf16)), y ∈ pc.1.set :=
  View.cover_of_tiled [⟨rX, p0⟩] S1024x1024.size (by rfl) y

/-! ## The body's triple -/

set_option maxHeartbeats 1000000 in
/-- On whole staging memrefs, the inputs' at read contents x, w, b and the outputs' at anything, the body runs to the
    continuation holding the inputs' as they were and each output's at its stored third. -/
theorem qkv_body_triple (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x : Vec F S1024x1024 .f32) (w : Vec F S1024x3072 .bf16) (b : Vec F S3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (qkvStoredQ x w b) ∗ owns (c : Thread nD τ) arg5 fullShare (qkvStoredK x w b)
            ∗ owns (c : Thread nD τ) arg6 fullShare (qkvStoredV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (qkv_cover _)
  isplitl [H5]
  · iexists _; isplitr
    swap; · iexact H5
    ipureintro
    exact View.read_writes_eq_canon _ _ _ (qkv_cover _)
  iexists _; isplitr
  swap; · iexact H6
  ipureintro
  exact View.read_writes_eq_canon _ _ _ (qkv_cover _)

/-! ## The pipeline's proof data -/

/-- The arrays as the region finds them; after the body at point t each input's buffer at its block and each output's at
    its stored third of the input blocks; the invariant the scoped rest and the generator register, untouched; nothing owed;
    full shares. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvBlk V c 2 t
    | ⟨3, _⟩ => qkvStoredQ (qkvBlk V c 0 t) (qkvBlk V c 1 t) (qkvBlk V c 2 t)
    | ⟨4, _⟩ => qkvStoredK (qkvBlk V c 0 t) (qkvBlk V c 1 t) (qkvBlk V c 2 t)
    | ⟨5, _⟩ => qkvStoredV (qkvBlk V c 0 t) (qkvBlk V c 1 t) (qkvBlk V c 2 t)
  Φ _ := Pipeline.ΦA spec0 c
  q _ := fullShare
  owed _ := 0

theorem qkvDat_A (c : Dev nD) (w : Fin cfg0.W) : (qkvDat V c).A w = V c (Pipeline.arrRef spec0 w) := by
  dsimp only [qkvDat]

theorem qkvDat_after_x (c : Dev nD) (t : Fin cfg0.N) : (qkvDat V c).after 0 t = qkvBlk V c 0 t := by dsimp only [qkvDat]
theorem qkvDat_after_w (c : Dev nD) (t : Fin cfg0.N) : (qkvDat V c).after 1 t = qkvBlk V c 1 t := by dsimp only [qkvDat]
theorem qkvDat_after_b (c : Dev nD) (t : Fin cfg0.N) : (qkvDat V c).after 2 t = qkvBlk V c 2 t := by dsimp only [qkvDat]
theorem qkvDat_after_q (c : Dev nD) (t : Fin cfg0.N) : (qkvDat V c).after 3 t = qkvStoredQ (qkvBlk V c 0 t) (qkvBlk V c 1 t) (qkvBlk V c 2 t) := by dsimp only [qkvDat]
theorem qkvDat_after_k (c : Dev nD) (t : Fin cfg0.N) : (qkvDat V c).after 4 t = qkvStoredK (qkvBlk V c 0 t) (qkvBlk V c 1 t) (qkvBlk V c 2 t) := by dsimp only [qkvDat]
theorem qkvDat_after_v (c : Dev nD) (t : Fin cfg0.N) : (qkvDat V c).after 5 t = qkvStoredV (qkvBlk V c 0 t) (qkvBlk V c 1 t) (qkvBlk V c 2 t) := by dsimp only [qkvDat]

theorem qkvDat_before_x (c : Dev nD) (t : Fin cfg0.N) (d) : (qkvDat V c).before 0 t d = qkvBlk V c 0 t :=
  qkv_before_x_of V (qkvDat V c) (qkvDat_A V c 0) (qkvDat_after_x V c) t d
theorem qkvDat_before_w (c : Dev nD) (t : Fin cfg0.N) (d) : (qkvDat V c).before 1 t d = qkvBlk V c 1 t :=
  qkv_before_w_of V (qkvDat V c) (qkvDat_A V c 1) (qkvDat_after_w V c) t d
theorem qkvDat_before_b (c : Dev nD) (t : Fin cfg0.N) (d) : (qkvDat V c).before 2 t d = qkvBlk V c 2 t :=
  qkv_before_b_of V (qkvDat V c) (qkvDat_A V c 2) (qkvDat_after_b V c) t d

/-! ## The body obligation, at a generic point -/

def qkvBodyPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d))
    ∗ (∃ d, owns (c : Thread nD τ) (st0_4 t) fullShare ((qkvDat V c).before 4 t d))
    ∗ (∃ d, owns (c : Thread nD τ) (st0_5 t) fullShare ((qkvDat V c).before 5 t d)))

def qkvBodyPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t)
    ∗ owns (c : Thread nD τ) (st0_4 t) fullShare ((qkvDat V c).after 4 t)
    ∗ owns (c : Thread nD τ) (st0_5 t) fullShare ((qkvDat V c).after 5 t))

/-- The body at any point: the inputs' memrefs hold their blocks, so the triple applies; the invariant and the core's dues
    pass through unread. -/
theorem qkv_sound_body (c : Dev nD) (t : Fin cfg0.N) :
    qkvBodyPre V c t ⊢ wp frame (wpE (defs₀ (F := F)) Variants.none c none) Set.univ (bodyAt0 t) (fun _ => qkvBodyPost V c t) := by
  unfold qkvBodyPre qkvBodyPost bodyAt0
  simp only [qkvDat_before_x, qkvDat_before_w, qkvDat_before_b]
  rw [show (qkvDat V c).Φ t.succ = (qkvDat V c).Φ t.castSucc from rfl,
    show (qkvDat V c).owesAt () t.succ = (qkvDat V c).owesAt () t.castSucc from rfl,
    qkvDat_after_x, qkvDat_after_w, qkvDat_after_b, qkvDat_after_q, qkvDat_after_k, qkvDat_after_v]
  iintro ⟨HΦ, Ho, ⟨%d0, H0⟩, ⟨%d1, H1⟩, ⟨%d2, H2⟩, ⟨%d3, H3⟩, ⟨%d4, H4⟩, ⟨%d5, H5⟩⟩
  iapply (qkv_body_triple c Set.univ _ _ _ _ _ _ _ _ _ _ _ _ _ (qkvBlk V c 0 t) (qkvBlk V c 1 t) (qkvBlk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem qkv_body_obligation (c : Dev nD) : BodyObligation (qkvDat (F := F) V c) (defs₀ (F := F)) Variants.none () Set.univ := fun t => by
  rw [bigSep_W0, bigSep_W0]
  exact qkv_sound_body V c t

end Cert.KernelIdeal.Frame

end
-- ==== Proof.AttnRegion.lean ====
/-
  The attention region (the second pallas_call) on one core, at any float instance and at any buffer contents V found on
  entry. Grid point (b, qi) reads query rows [512 qi, 512 qi + 512) of batch b and ALL 4096 key rows and value rows of
  batch b, and stores softmax(q kᵀ) v into output rows [512 qi, 512 qi + 512) of batch b. The body is one straight line of
  whole-block loads and one whole-block store; the key and value blocks are refetched only when the batch changes, and
  the staging buffer holds the batch's block either way.
-/
import proofs.«151214_j36215164240477_2_alg».proof.Proof.Gen.KernelIdeal.Launch
import proofs.«151214_j36215164240477_2_alg».proof.Proof.Gen.KernelIdeal.Skeleton
import proofs.«151214_j36215164240477_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, read off the entry contents -/

/-- Window w's block at grid point t. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, refetched there or not. -/
theorem attn_before_q_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attn_before_k_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attn_before_v_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's accesses: each one the whole staging buffer -/

abbrev rQ : Rect S1x512x1024 := Rect.unit (s := S1x512x1024) ![0, 0, 0] S1x512x1024.size inb_S1x512x1024_S1x512x1024_0_0_0
abbrev rKV : Rect S1x4096x1024 := Rect.unit (s := S1x4096x1024) ![0, 0, 0] S1x4096x1024.size inb_S1x4096x1024_S1x4096x1024_0_0_0

/-! ## What the body leaves in the output's staging buffer -/

/-- softmax(q kᵀ) v of the three input blocks, as the one stored piece. -/
def attnStored (q : Vec F S1x512x1024 .bf16) (k v : Vec F S1x4096x1024 .bf16) : Vec F S1x512x1024 .f32 :=
  View.canon [⟨rQ, k1_pay1 (View.ld q rQ) (View.ld k rKV) (View.ld v rKV)⟩]

/-- One whole-buffer store covers the buffer. -/
theorem attn_cover (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The body's triple -/

set_option maxHeartbeats 1000000 in
/-- On whole staging memrefs, the inputs' at read contents q, k, v and the output's at anything, the body runs to the
    continuation holding the inputs' as they were and the output's at the stored value. -/
theorem attn_body_triple (c : Dev nD) (E : Set ℕ) (i : grid1.Coords)
    (arg2 : Memref sig .tc .vmem S1x512x1024 .bf16) (harg2 : arg2.IsWhole) (arg3 : Memref sig .tc .vmem S1x4096x1024 .bf16) (harg3 : arg3.IsWhole)
    (arg4 : Memref sig .tc .vmem S1x4096x1024 .bf16) (harg4 : arg4.IsWhole) (arg5 : Memref sig .tc .vmem S1x512x1024 .f32) (harg5 : arg5.IsWhole)
    (q : Vec F S1x512x1024 .bf16) (k v : Vec F S1x4096x1024 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (attnStored q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (attn_cover _)

/-! ## The pipeline's proof data -/

/-- The arrays as the region finds them; after the body at point t each input's buffer at its block and the output's at the
    stored value of the input blocks; the invariant the scoped rest and the generator register, untouched; nothing owed; full
    shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnStored (attnBlk V c 0 t) (attnBlk V c 1 t) (attnBlk V c 2 t)
  Φ _ := Pipeline.ΦA spec1 c
  q _ := fullShare
  owed _ := 0

theorem attnDat_A (c : Dev nD) (w : Fin cfg1.W) : (attnDat V c).A w = V c (Pipeline.arrRef spec1 w) := by
  dsimp only [attnDat]

theorem attnDat_after_q (c : Dev nD) (t : Fin cfg1.N) : (attnDat V c).after 0 t = attnBlk V c 0 t := by dsimp only [attnDat]
theorem attnDat_after_k (c : Dev nD) (t : Fin cfg1.N) : (attnDat V c).after 1 t = attnBlk V c 1 t := by dsimp only [attnDat]
theorem attnDat_after_v (c : Dev nD) (t : Fin cfg1.N) : (attnDat V c).after 2 t = attnBlk V c 2 t := by dsimp only [attnDat]
theorem attnDat_after_o (c : Dev nD) (t : Fin cfg1.N) : (attnDat V c).after 3 t = attnStored (attnBlk V c 0 t) (attnBlk V c 1 t) (attnBlk V c 2 t) := by dsimp only [attnDat]

theorem attnDat_before_q (c : Dev nD) (t : Fin cfg1.N) (d) : (attnDat V c).before 0 t d = attnBlk V c 0 t :=
  attn_before_q_of V (attnDat V c) (attnDat_A V c 0) (attnDat_after_q V c) t d
theorem attnDat_before_k (c : Dev nD) (t : Fin cfg1.N) (d) : (attnDat V c).before 1 t d = attnBlk V c 1 t :=
  attn_before_k_of V (attnDat V c) (attnDat_A V c 1) (attnDat_after_k V c) t d
theorem attnDat_before_v (c : Dev nD) (t : Fin cfg1.N) (d) : (attnDat V c).before 2 t d = attnBlk V c 2 t :=
  attn_before_v_of V (attnDat V c) (attnDat_A V c 2) (attnDat_after_v V c) t d

/-! ## The body obligation, at a generic point -/

def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so the triple applies; the invariant and the core's dues
    pass through unread. -/
theorem attn_sound_body (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnDat_before_q, attnDat_before_k, attnDat_before_v]
  rw [show (attnDat V c).Φ t.succ = (attnDat V c).Φ t.castSucc from rfl,
    show (attnDat V c).owesAt () t.succ = (attnDat V c).owesAt () t.castSucc from rfl,
    attnDat_after_q, attnDat_after_k, attnDat_after_v, attnDat_after_o]
  iintro ⟨HΦ, Ho, ⟨%d0, H0⟩, ⟨%d1, H1⟩, ⟨%d2, H2⟩, ⟨%d3, H3⟩⟩
  iapply (attn_body_triple c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem attn_body_obligation (c : Dev nD) : BodyObligation (attnDat (F := F) V c) (defs₀ (F := F)) Variants.none () Set.univ := fun t => by
  rw [bigSep_W1, bigSep_W1]
  exact attn_sound_body V c t

end Cert.KernelIdeal.Frame

end
-- ==== Proof.MainRun.lean ====
/-
  The whole program on the TensorCores: ten host operations (the scale folded into the query weight and bias, the three weights
  and the three biases concatenated, the weight rounded, the activations flattened), the projection region, three reshapes
  back to [4, 4096, 1024], the attention region. The buffer contents at each boundary are a fold from the launch memory:
  a host stretch applies its operations, a region replaces its windows' arrays by what its write-backs leave and keeps every
  other buffer. No host operation and no region writes an argument array, so each reaches the end as launched; and the
  last boundary's contents at the result buffer are what the attention region's write-backs leave. One run theorem reads
  every unscoped buffer at the last boundary; the frame and the value are read off it.
-/
import proofs.«151214_j36215164240477_2_alg».proof.Proof.QkvRegion
import proofs.«151214_j36215164240477_2_alg».proof.Proof.AttnRegion
import proofs.«151214_j36215164240477_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch: the projection region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (qkvDat (E1 m ρ) c).arrAt w cfg0.N
theorem B2_arr (c : Dev nD) (w : Fin cfg0.W) :
    B2 m ρ c (Proc.devRef .tc (Pipeline.arrRef spec0 w)) = (qkvDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem qkv_left (c : Dev nD) (w : Fin cfg0.W) : (qkvDat (E1 m ρ) c).arrAt w cfg0.N = E2 m ρ c (Pipeline.arrRef spec0 w) :=
  (B2_arr m ρ c w).symm
theorem qkv_kept (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the three reshapes: the attention region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention region's exit. -/
def B4 (c : Dev nD) : Valuation τ sig (Elt F) :=
  Pipeline.withArrays spec1 c (B3 m ρ c) fun w => (attnDat (E3 m ρ) c).arrAt w cfg1.N
theorem B4_arr (c : Dev nD) (w : Fin cfg1.W) :
    B4 m ρ c (Proc.devRef .tc (Pipeline.arrRef spec1 w)) = (attnDat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem attn_left (c : Dev nD) (w : Fin cfg1.W) : (attnDat (E3 m ρ) c).arrAt w cfg1.N = E4 m ρ c (Pipeline.arrRef spec1 w) :=
  (B4_arr m ρ c w).symm
theorem attn_kept (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer that no host operation writes and that is no window's array ends as launched -/

theorem B4_of_untouched (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    B4 m ρ c (Proc.devRef .tc b) = m ((c : Thread nD τ).loc b) :=
  calc B4 m ρ c (Proc.devRef .tc b)
    _ = B3 m ρ c (Proc.devRef .tc b) := B4_of_ne m ρ c b h1
    _ = B2 m ρ c (Proc.devRef .tc b) := StableHlo.after_of_writes_sub hostOps1 _ hostOps1_writes hh1
    _ = B1 m ρ c (Proc.devRef .tc b) := B2_of_ne m ρ c b h0
    _ = B0 m ρ c (Proc.devRef .tc b) := StableHlo.after_of_writes_sub hostOps0 _ hostOps0_writes hh0
    _ = m ((c : Thread nD τ).loc b) := rfl

theorem B4_main_arg0 (c : Dev nD) : B4 m ρ c (Proc.devRef .tc main_arg0) = m ((c : Thread nD τ).loc main_arg0) :=
  B4_of_untouched m ρ c main_arg0 (by decide) (by decide) (by decide) (by decide)
theorem B4_main_arg1 (c : Dev nD) : B4 m ρ c (Proc.devRef .tc main_arg1) = m ((c : Thread nD τ).loc main_arg1) :=
  B4_of_untouched m ρ c main_arg1 (by decide) (by decide) (by decide) (by decide)
theorem B4_main_arg2 (c : Dev nD) : B4 m ρ c (Proc.devRef .tc main_arg2) = m ((c : Thread nD τ).loc main_arg2) :=
  B4_of_untouched m ρ c main_arg2 (by decide) (by decide) (by decide) (by decide)
theorem B4_main_arg3 (c : Dev nD) : B4 m ρ c (Proc.devRef .tc main_arg3) = m ((c : Thread nD τ).loc main_arg3) :=
  B4_of_untouched m ρ c main_arg3 (by decide) (by decide) (by decide) (by decide)
theorem B4_main_arg4 (c : Dev nD) : B4 m ρ c (Proc.devRef .tc main_arg4) = m ((c : Thread nD τ).loc main_arg4) :=
  B4_of_untouched m ρ c main_arg4 (by decide) (by decide) (by decide) (by decide)
theorem B4_main_arg5 (c : Dev nD) : B4 m ρ c (Proc.devRef .tc main_arg5) = m ((c : Thread nD τ).loc main_arg5) :=
  B4_of_untouched m ρ c main_arg5 (by decide) (by decide) (by decide) (by decide)
theorem B4_main_arg6 (c : Dev nD) : B4 m ρ c (Proc.devRef .tc main_arg6) = m ((c : Thread nD τ).loc main_arg6) :=
  B4_of_untouched m ρ c main_arg6 (by decide) (by decide) (by decide) (by decide)

/-! ## The proof data family and the thread state -/

abbrev noTables : (p : Fin 2) → (pcfgs (F := F) p).Adm := fun p => (cfgs p).toPCfg_adm
/-- Each pipeline's proof data at its region's entry contents. -/
def regionDats : (p : Fin 2) → (c : Dev nD) → Dat τ (Elt F) Unit ℕ (UR sig nD τ) ℕ (Pipeline.pin (pcfgs (F := F)) noTables p) c
  | ⟨0, _⟩ => fun c => qkvDat (E1 m ρ) c
  | ⟨1, _⟩ => fun c => attnDat (E3 m ρ) c
abbrev noVariants : Variants := Variants.none
abbrev noLevels : GSem nD τ sig → Finset Unit := fun _ => ∅
abbrev levelZero : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev LastState (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The projection region: entered from every unscoped buffer at B1, left at B2. -/
def qkvSeg : Pipeline.RegionSeg (pcfgs (F := F)) noTables (regionDats m ρ) () defs₀ noVariants noLevels levelZero 0 where
  win := launch0.win.to₀
  block_pos := launch0.block_pos
  stage_whole := launch0.stage_whole
  K := PEmpty
  osem k := k.elim
  ho := Pipeline.OwnSemFacts.none _
  hbody c := (qkv_body_obligation (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (regionDats m ρ) launch0.win launch0.arr_whole c
      ((regionDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m ρ) ((regionDats m ρ 0 c).share_full fun _ => rfl)
      (E1 m ρ c) (E2 m ρ c) ((regionDats m ρ 0 c).arrAt · cfg0.N) (qkv_left m ρ c) (qkv_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at B3, left at B4 (what the launch reads at the end). -/
def attnSeg : Pipeline.RegionSeg (pcfgs (F := F)) noTables (regionDats m ρ) () defs₀ noVariants noLevels levelZero 1 where
  win := launch1.win.to₀
  block_pos := launch1.block_pos
  stage_whole := launch1.stage_whole
  K := PEmpty
  osem k := k.elim
  ho := Pipeline.OwnSemFacts.none _
  hbody c := (attn_body_obligation (E3 m ρ) c).loose
  hwaits := Pipeline.hwaits_of_owed_zero _ _ _ _ noLevels levelZero 1 fun _ _ => rfl
  pre c := iprop(StableHlo.held (c : Thread nD τ) (Pipeline.ucRefs τ sig) (B3 m ρ c) ∗ Rest c)
  post c := iprop(LastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (regionDats m ρ) launch1.win launch1.arr_whole c
      ((regionDats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m ρ) ((regionDats m ρ 1 c).share_full fun _ => rfl)
      (E3 m ρ c) (E4 m ρ c) ((regionDats m ρ 1 c).arrAt · cfg1.N) (attn_left m ρ c) (attn_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) noTables (regionDats m ρ) () defs₀ noVariants noLevels levelZero) :=
  [ .host (hostStretch hostOps0 hostOps0_sub hostOps0_fresh (B0 m ρ)),
    .region (qkvSeg m ρ),
    .host (hostStretch hostOps1 hostOps1_sub hostOps1_fresh (B2 m ρ)),
    .region (attnSeg m ρ) ]

theorem main_is_segs (c : Dev nD) : main (F := F) c = Pipeline.Seg.run (mainSegs m ρ) :=
  main_segs noTables (regionDats m ρ) () noVariants noLevels levelZero _ _ (qkvSeg m ρ) (attnSeg m ρ) rfl rfl c

set_option backward.isDefEq.respectTransparency.types false in
/-- THE RUN: from any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (regionDats m ρ) () cellOf_inj emb₁ defs₀ noVariants noLevels levelZero m ρ main (mainSegs m ρ)
    (fun c Q => by rw [main_is_segs m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := LastState m ρ)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c),
     (h c _ (mem_unscoped main_arg5 (by decide))).trans (B4_main_arg5 m ρ c),
     (h c _ (mem_unscoped main_arg6 (by decide))).trans (B4_main_arg6 m ρ c)⟩) (run_all m ρ)

/-- The run with the result buffer named: it ends at what the attention region's write-backs leave, the arguments as
    launched. -/
theorem run_result : θ_run defs (onTc (τ := τ) (main (F := F))) ⟨m, fun _ => 0, ρ⟩ (fun r => ∀ c : Dev nD,
      r.2.mem ((c.tc : Thread nD τ).loc main_v12) = (attnDat (E3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_v12 (by decide))).trans (B4_arr m ρ c 3),
     (h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c),
     (h c _ (mem_unscoped main_arg5 (by decide))).trans (B4_main_arg5 m ρ c),
     (h c _ (mem_unscoped main_arg6 (by decide))).trans (B4_main_arg6 m ρ c)⟩) (run_all m ρ)

end Cert.KernelIdeal.Frame

end
-- ==== Proof.KQkvRegion.lean ====
/-
  The projection region (the first pallas_call) on one core, at any float instance and at any buffer contents V found on
  entry. Grid point t reads row block t of the flattened activations [16384, 1024] (1024 rows), the whole concatenated
  weight [1024, 3072] and the whole concatenated bias [3072], and stores the three column thirds of
  x · W + bias into row block t of the three outputs. The body is one straight line of whole-block loads and stores, so what
  it leaves in each output's staging buffer is a single stored piece covering the buffer; the inputs' staging buffers hold
  the blocks read off V whether or not the pipeline refetched them at t (the weight and the bias are fetched once).
-/
import proofs.«151214_j36215164240477_2_alg».proof.Proof.Gen.Kernel.Launch
import proofs.«151214_j36215164240477_2_alg».proof.Proof.Gen.Kernel.Skeleton
import proofs.«151214_j36215164240477_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, read off the entry contents -/

/-- Window w's block at grid point t. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, refetched there or not. -/
theorem qkv_before_x_of {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)
theorem qkv_before_w_of {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)
theorem qkv_before_b_of {c : Dev nD} (dat : Dat τ (Elt F) Unit ℕ (UR sig nD τ) ℕ cfg0 c) (hA : dat.A 2 = V c (Pipeline.arrRef spec0 2))
    (hafter : ∀ t, dat.after 2 t = qkvBlk V c 2 t) (t : Fin cfg0.N) (d) : dat.before 2 t d = qkvBlk V c 2 t :=
  (dat.before_in_eq_fetched 2 rfl (fun _ => rfl) (fun _ _ _ => rfl) (fun t => by rw [hafter]; unfold Dat.blockOf qkvBlk; rw [hA]; try rfl) t d).trans
    (by unfold Dat.fetched Dat.blockOf qkvBlk; rw [hA]; try rfl)

/-! ## The body's accesses: each one the whole staging buffer -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each output's staging buffer -/

/-- The query third: columns [0, 1024) of x · W + bias. -/
def qkvStoredQ (x : Vec F S1024x1024 .f32) (w : Vec F S1024x3072 .bf16) (b : Vec F S3072 .f32) : Vec F S1024x1024 .bf16 :=
  View.canon [⟨rX, k0_pay2 (View.ld x rX) (View.ld w rW) (View.ld b rB)⟩]
/-- The key third: columns [1024, 2048). -/
def qkvStoredK (x : Vec F S1024x1024 .f32) (w : Vec F S1024x3072 .bf16) (b : Vec F S3072 .f32) : Vec F S1024x1024 .bf16 :=
  View.canon [⟨rX, k0_pay3 (View.ld x rX) (View.ld w rW) (View.ld b rB)⟩]
/-- The value third: columns [2048, 3072). -/
def qkvStoredV (x : Vec F S1024x1024 .f32) (w : Vec F S1024x3072 .bf16) (b : Vec F S3072 .f32) : Vec F S1024x1024 .bf16 :=
  View.canon [⟨rX, k0_pay4 (View.ld x rX) (View.ld w rW) (View.ld b rB)⟩]

/-- One whole-buffer store covers the buffer. -/
theorem qkv_cover (p0 : Vec F S1024x1024 .bf16) (y : S1024x1024.Idx) :
    ∃ pc ∈ ([⟨rX, p0⟩] : List (View.Piece (Elt F) S1024x1024 .bf16)), y ∈ pc.1.set :=
  View.cover_of_tiled [⟨rX, p0⟩] S1024x1024.size (by rfl) y

/-! ## The body's triple -/

set_option maxHeartbeats 1000000 in
/-- On whole staging memrefs, the inputs' at read contents x, w, b and the outputs' at anything, the body runs to the
    continuation holding the inputs' as they were and each output's at its stored third. -/
theorem qkv_body_triple (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x : Vec F S1024x1024 .f32) (w : Vec F S1024x3072 .bf16) (b : Vec F S3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (qkvStoredQ x w b) ∗ owns (c : Thread nD τ) arg5 fullShare (qkvStoredK x w b)
            ∗ owns (c : Thread nD τ) arg6 fullShare (qkvStoredV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (qkv_cover _)
  isplitl [H5]
  · iexists _; isplitr
    swap; · iexact H5
    ipureintro
    exact View.read_writes_eq_canon _ _ _ (qkv_cover _)
  iexists _; isplitr
  swap; · iexact H6
  ipureintro
  exact View.read_writes_eq_canon _ _ _ (qkv_cover _)

/-! ## The pipeline's proof data -/

/-- The arrays as the region finds them; after the body at point t each input's buffer at its block and each output's at
    its stored third of the input blocks; the invariant the scoped rest and the generator register, untouched; nothing owed;
    full shares. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvBlk V c 2 t
    | ⟨3, _⟩ => qkvStoredQ (qkvBlk V c 0 t) (qkvBlk V c 1 t) (qkvBlk V c 2 t)
    | ⟨4, _⟩ => qkvStoredK (qkvBlk V c 0 t) (qkvBlk V c 1 t) (qkvBlk V c 2 t)
    | ⟨5, _⟩ => qkvStoredV (qkvBlk V c 0 t) (qkvBlk V c 1 t) (qkvBlk V c 2 t)
  Φ _ := Pipeline.ΦA spec0 c
  q _ := fullShare
  owed _ := 0

theorem qkvDat_A (c : Dev nD) (w : Fin cfg0.W) : (qkvDat V c).A w = V c (Pipeline.arrRef spec0 w) := by
  dsimp only [qkvDat]

theorem qkvDat_after_x (c : Dev nD) (t : Fin cfg0.N) : (qkvDat V c).after 0 t = qkvBlk V c 0 t := by dsimp only [qkvDat]
theorem qkvDat_after_w (c : Dev nD) (t : Fin cfg0.N) : (qkvDat V c).after 1 t = qkvBlk V c 1 t := by dsimp only [qkvDat]
theorem qkvDat_after_b (c : Dev nD) (t : Fin cfg0.N) : (qkvDat V c).after 2 t = qkvBlk V c 2 t := by dsimp only [qkvDat]
theorem qkvDat_after_q (c : Dev nD) (t : Fin cfg0.N) : (qkvDat V c).after 3 t = qkvStoredQ (qkvBlk V c 0 t) (qkvBlk V c 1 t) (qkvBlk V c 2 t) := by dsimp only [qkvDat]
theorem qkvDat_after_k (c : Dev nD) (t : Fin cfg0.N) : (qkvDat V c).after 4 t = qkvStoredK (qkvBlk V c 0 t) (qkvBlk V c 1 t) (qkvBlk V c 2 t) := by dsimp only [qkvDat]
theorem qkvDat_after_v (c : Dev nD) (t : Fin cfg0.N) : (qkvDat V c).after 5 t = qkvStoredV (qkvBlk V c 0 t) (qkvBlk V c 1 t) (qkvBlk V c 2 t) := by dsimp only [qkvDat]

theorem qkvDat_before_x (c : Dev nD) (t : Fin cfg0.N) (d) : (qkvDat V c).before 0 t d = qkvBlk V c 0 t :=
  qkv_before_x_of V (qkvDat V c) (qkvDat_A V c 0) (qkvDat_after_x V c) t d
theorem qkvDat_before_w (c : Dev nD) (t : Fin cfg0.N) (d) : (qkvDat V c).before 1 t d = qkvBlk V c 1 t :=
  qkv_before_w_of V (qkvDat V c) (qkvDat_A V c 1) (qkvDat_after_w V c) t d
theorem qkvDat_before_b (c : Dev nD) (t : Fin cfg0.N) (d) : (qkvDat V c).before 2 t d = qkvBlk V c 2 t :=
  qkv_before_b_of V (qkvDat V c) (qkvDat_A V c 2) (qkvDat_after_b V c) t d

/-! ## The body obligation, at a generic point -/

def qkvBodyPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d))
    ∗ (∃ d, owns (c : Thread nD τ) (st0_4 t) fullShare ((qkvDat V c).before 4 t d))
    ∗ (∃ d, owns (c : Thread nD τ) (st0_5 t) fullShare ((qkvDat V c).before 5 t d)))

def qkvBodyPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t)
    ∗ owns (c : Thread nD τ) (st0_4 t) fullShare ((qkvDat V c).after 4 t)
    ∗ owns (c : Thread nD τ) (st0_5 t) fullShare ((qkvDat V c).after 5 t))

/-- The body at any point: the inputs' memrefs hold their blocks, so the triple applies; the invariant and the core's dues
    pass through unread. -/
theorem qkv_sound_body (c : Dev nD) (t : Fin cfg0.N) :
    qkvBodyPre V c t ⊢ wp frame (wpE (defs₀ (F := F)) Variants.none c none) Set.univ (bodyAt0 t) (fun _ => qkvBodyPost V c t) := by
  unfold qkvBodyPre qkvBodyPost bodyAt0
  simp only [qkvDat_before_x, qkvDat_before_w, qkvDat_before_b]
  rw [show (qkvDat V c).Φ t.succ = (qkvDat V c).Φ t.castSucc from rfl,
    show (qkvDat V c).owesAt () t.succ = (qkvDat V c).owesAt () t.castSucc from rfl,
    qkvDat_after_x, qkvDat_after_w, qkvDat_after_b, qkvDat_after_q, qkvDat_after_k, qkvDat_after_v]
  iintro ⟨HΦ, Ho, ⟨%d0, H0⟩, ⟨%d1, H1⟩, ⟨%d2, H2⟩, ⟨%d3, H3⟩, ⟨%d4, H4⟩, ⟨%d5, H5⟩⟩
  iapply (qkv_body_triple c Set.univ _ _ _ _ _ _ _ _ _ _ _ _ _ (qkvBlk V c 0 t) (qkvBlk V c 1 t) (qkvBlk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem qkv_body_obligation (c : Dev nD) : BodyObligation (qkvDat (F := F) V c) (defs₀ (F := F)) Variants.none () Set.univ := fun t => by
  rw [bigSep_W0, bigSep_W0]
  exact qkv_sound_body V c t

end Cert.Kernel.Frame

end
-- ==== Proof.KAttnRegion.lean ====
/-
  The attention region (the second pallas_call) on one core, at any float instance and at any buffer contents V found on
  entry. Grid point (b, qi) reads query rows [512 qi, 512 qi + 512) of batch b and ALL 4096 key rows and value rows of
  batch b, and stores softmax(q kᵀ) v into output rows [512 qi, 512 qi + 512) of batch b. The body is one straight line of
  whole-block loads and one whole-block store; the key and value blocks are refetched only when the batch changes, and
  the staging buffer holds the batch's block either way.
-/
import proofs.«151214_j36215164240477_2_alg».proof.Proof.Gen.Kernel.Launch
import proofs.«151214_j36215164240477_2_alg».proof.Proof.Gen.Kernel.Skeleton
import proofs.«151214_j36215164240477_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, read off the entry contents -/

/-- Window w's block at grid point t. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, refetched there or not. -/
theorem attn_before_q_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attn_before_k_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attn_before_v_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's accesses: each one the whole staging buffer -/

abbrev rQ : Rect S1x512x1024 := Rect.unit (s := S1x512x1024) ![0, 0, 0] S1x512x1024.size inb_S1x512x1024_S1x512x1024_0_0_0
abbrev rKV : Rect S1x4096x1024 := Rect.unit (s := S1x4096x1024) ![0, 0, 0] S1x4096x1024.size inb_S1x4096x1024_S1x4096x1024_0_0_0

/-! ## What the body leaves in the output's staging buffer -/

/-- softmax(q kᵀ) v of the three input blocks, as the one stored piece. -/
def attnStored (q : Vec F S1x512x1024 .bf16) (k v : Vec F S1x4096x1024 .bf16) : Vec F S1x512x1024 .f32 :=
  View.canon [⟨rQ, k1_pay1 (View.ld q rQ) (View.ld k rKV) (View.ld v rKV)⟩]

/-- One whole-buffer store covers the buffer. -/
theorem attn_cover (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The body's triple -/

set_option maxHeartbeats 1000000 in
/-- On whole staging memrefs, the inputs' at read contents q, k, v and the output's at anything, the body runs to the
    continuation holding the inputs' as they were and the output's at the stored value. -/
theorem attn_body_triple (c : Dev nD) (E : Set ℕ) (i : grid1.Coords)
    (arg2 : Memref sig .tc .vmem S1x512x1024 .bf16) (harg2 : arg2.IsWhole) (arg3 : Memref sig .tc .vmem S1x4096x1024 .bf16) (harg3 : arg3.IsWhole)
    (arg4 : Memref sig .tc .vmem S1x4096x1024 .bf16) (harg4 : arg4.IsWhole) (arg5 : Memref sig .tc .vmem S1x512x1024 .f32) (harg5 : arg5.IsWhole)
    (q : Vec F S1x512x1024 .bf16) (k v : Vec F S1x4096x1024 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (attnStored q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (attn_cover _)

/-! ## The pipeline's proof data -/

/-- The arrays as the region finds them; after the body at point t each input's buffer at its block and the output's at the
    stored value of the input blocks; the invariant the scoped rest and the generator register, untouched; nothing owed; full
    shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnStored (attnBlk V c 0 t) (attnBlk V c 1 t) (attnBlk V c 2 t)
  Φ _ := Pipeline.ΦA spec1 c
  q _ := fullShare
  owed _ := 0

theorem attnDat_A (c : Dev nD) (w : Fin cfg1.W) : (attnDat V c).A w = V c (Pipeline.arrRef spec1 w) := by
  dsimp only [attnDat]

theorem attnDat_after_q (c : Dev nD) (t : Fin cfg1.N) : (attnDat V c).after 0 t = attnBlk V c 0 t := by dsimp only [attnDat]
theorem attnDat_after_k (c : Dev nD) (t : Fin cfg1.N) : (attnDat V c).after 1 t = attnBlk V c 1 t := by dsimp only [attnDat]
theorem attnDat_after_v (c : Dev nD) (t : Fin cfg1.N) : (attnDat V c).after 2 t = attnBlk V c 2 t := by dsimp only [attnDat]
theorem attnDat_after_o (c : Dev nD) (t : Fin cfg1.N) : (attnDat V c).after 3 t = attnStored (attnBlk V c 0 t) (attnBlk V c 1 t) (attnBlk V c 2 t) := by dsimp only [attnDat]

theorem attnDat_before_q (c : Dev nD) (t : Fin cfg1.N) (d) : (attnDat V c).before 0 t d = attnBlk V c 0 t :=
  attn_before_q_of V (attnDat V c) (attnDat_A V c 0) (attnDat_after_q V c) t d
theorem attnDat_before_k (c : Dev nD) (t : Fin cfg1.N) (d) : (attnDat V c).before 1 t d = attnBlk V c 1 t :=
  attn_before_k_of V (attnDat V c) (attnDat_A V c 1) (attnDat_after_k V c) t d
theorem attnDat_before_v (c : Dev nD) (t : Fin cfg1.N) (d) : (attnDat V c).before 2 t d = attnBlk V c 2 t :=
  attn_before_v_of V (attnDat V c) (attnDat_A V c 2) (attnDat_after_v V c) t d

/-! ## The body obligation, at a generic point -/

def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so the triple applies; the invariant and the core's dues
    pass through unread. -/
theorem attn_sound_body (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnDat_before_q, attnDat_before_k, attnDat_before_v]
  rw [show (attnDat V c).Φ t.succ = (attnDat V c).Φ t.castSucc from rfl,
    show (attnDat V c).owesAt () t.succ = (attnDat V c).owesAt () t.castSucc from rfl,
    attnDat_after_q, attnDat_after_k, attnDat_after_v, attnDat_after_o]
  iintro ⟨HΦ, Ho, ⟨%d0, H0⟩, ⟨%d1, H1⟩, ⟨%d2, H2⟩, ⟨%d3, H3⟩⟩
  iapply (attn_body_triple c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem attn_body_obligation (c : Dev nD) : BodyObligation (attnDat (F := F) V c) (defs₀ (F := F)) Variants.none () Set.univ := fun t => by
  rw [bigSep_W1, bigSep_W1]
  exact attn_sound_body V c t

end Cert.Kernel.Frame

end
-- ==== Proof.KMainRun.lean ====
/-
  The whole program on the TensorCores: ten host operations (the scale folded into the query weight and bias, the three weights
  and the three biases concatenated, the weight rounded, the activations flattened), the projection region, three reshapes
  back to [4, 4096, 1024], the attention region. The buffer contents at each boundary are a fold from the launch memory:
  a host stretch applies its operations, a region replaces its windows' arrays by what its write-backs leave and keeps every
  other buffer. No host operation and no region writes an argument array, so each reaches the end as launched; and the
  last boundary's contents at the result buffer are what the attention region's write-backs leave. One run theorem reads
  every unscoped buffer at the last boundary; the frame and the value are read off it.
-/
import proofs.«151214_j36215164240477_2_alg».proof.Proof.KQkvRegion
import proofs.«151214_j36215164240477_2_alg».proof.Proof.KAttnRegion
import proofs.«151214_j36215164240477_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch: the projection region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (qkvDat (E1 m ρ) c).arrAt w cfg0.N
theorem B2_arr (c : Dev nD) (w : Fin cfg0.W) :
    B2 m ρ c (Proc.devRef .tc (Pipeline.arrRef spec0 w)) = (qkvDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem qkv_left (c : Dev nD) (w : Fin cfg0.W) : (qkvDat (E1 m ρ) c).arrAt w cfg0.N = E2 m ρ c (Pipeline.arrRef spec0 w) :=
  (B2_arr m ρ c w).symm
theorem qkv_kept (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the three reshapes: the attention region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention region's exit. -/
def B4 (c : Dev nD) : Valuation τ sig (Elt F) :=
  Pipeline.withArrays spec1 c (B3 m ρ c) fun w => (attnDat (E3 m ρ) c).arrAt w cfg1.N
theorem B4_arr (c : Dev nD) (w : Fin cfg1.W) :
    B4 m ρ c (Proc.devRef .tc (Pipeline.arrRef spec1 w)) = (attnDat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem attn_left (c : Dev nD) (w : Fin cfg1.W) : (attnDat (E3 m ρ) c).arrAt w cfg1.N = E4 m ρ c (Pipeline.arrRef spec1 w) :=
  (B4_arr m ρ c w).symm
theorem attn_kept (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer that no host operation writes and that is no window's array ends as launched -/

theorem B4_of_untouched (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    B4 m ρ c (Proc.devRef .tc b) = m ((c : Thread nD τ).loc b) :=
  calc B4 m ρ c (Proc.devRef .tc b)
    _ = B3 m ρ c (Proc.devRef .tc b) := B4_of_ne m ρ c b h1
    _ = B2 m ρ c (Proc.devRef .tc b) := StableHlo.after_of_writes_sub hostOps1 _ hostOps1_writes hh1
    _ = B1 m ρ c (Proc.devRef .tc b) := B2_of_ne m ρ c b h0
    _ = B0 m ρ c (Proc.devRef .tc b) := StableHlo.after_of_writes_sub hostOps0 _ hostOps0_writes hh0
    _ = m ((c : Thread nD τ).loc b) := rfl

theorem B4_main_arg0 (c : Dev nD) : B4 m ρ c (Proc.devRef .tc main_arg0) = m ((c : Thread nD τ).loc main_arg0) :=
  B4_of_untouched m ρ c main_arg0 (by decide) (by decide) (by decide) (by decide)
theorem B4_main_arg1 (c : Dev nD) : B4 m ρ c (Proc.devRef .tc main_arg1) = m ((c : Thread nD τ).loc main_arg1) :=
  B4_of_untouched m ρ c main_arg1 (by decide) (by decide) (by decide) (by decide)
theorem B4_main_arg2 (c : Dev nD) : B4 m ρ c (Proc.devRef .tc main_arg2) = m ((c : Thread nD τ).loc main_arg2) :=
  B4_of_untouched m ρ c main_arg2 (by decide) (by decide) (by decide) (by decide)
theorem B4_main_arg3 (c : Dev nD) : B4 m ρ c (Proc.devRef .tc main_arg3) = m ((c : Thread nD τ).loc main_arg3) :=
  B4_of_untouched m ρ c main_arg3 (by decide) (by decide) (by decide) (by decide)
theorem B4_main_arg4 (c : Dev nD) : B4 m ρ c (Proc.devRef .tc main_arg4) = m ((c : Thread nD τ).loc main_arg4) :=
  B4_of_untouched m ρ c main_arg4 (by decide) (by decide) (by decide) (by decide)
theorem B4_main_arg5 (c : Dev nD) : B4 m ρ c (Proc.devRef .tc main_arg5) = m ((c : Thread nD τ).loc main_arg5) :=
  B4_of_untouched m ρ c main_arg5 (by decide) (by decide) (by decide) (by decide)
theorem B4_main_arg6 (c : Dev nD) : B4 m ρ c (Proc.devRef .tc main_arg6) = m ((c : Thread nD τ).loc main_arg6) :=
  B4_of_untouched m ρ c main_arg6 (by decide) (by decide) (by decide) (by decide)

/-! ## The proof data family and the thread state -/

abbrev noTables : (p : Fin 2) → (pcfgs (F := F) p).Adm := fun p => (cfgs p).toPCfg_adm
/-- Each pipeline's proof data at its region's entry contents. -/
def regionDats : (p : Fin 2) → (c : Dev nD) → Dat τ (Elt F) Unit ℕ (UR sig nD τ) ℕ (Pipeline.pin (pcfgs (F := F)) noTables p) c
  | ⟨0, _⟩ => fun c => qkvDat (E1 m ρ) c
  | ⟨1, _⟩ => fun c => attnDat (E3 m ρ) c
abbrev noVariants : Variants := Variants.none
abbrev noLevels : GSem nD τ sig → Finset Unit := fun _ => ∅
abbrev levelZero : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev LastState (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The projection region: entered from every unscoped buffer at B1, left at B2. -/
def qkvSeg : Pipeline.RegionSeg (pcfgs (F := F)) noTables (regionDats m ρ) () defs₀ noVariants noLevels levelZero 0 where
  win := launch0.win.to₀
  block_pos := launch0.block_pos
  stage_whole := launch0.stage_whole
  K := PEmpty
  osem k := k.elim
  ho := Pipeline.OwnSemFacts.none _
  hbody c := (qkv_body_obligation (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (regionDats m ρ) launch0.win launch0.arr_whole c
      ((regionDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m ρ) ((regionDats m ρ 0 c).share_full fun _ => rfl)
      (E1 m ρ c) (E2 m ρ c) ((regionDats m ρ 0 c).arrAt · cfg0.N) (qkv_left m ρ c) (qkv_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at B3, left at B4 (what the launch reads at the end). -/
def attnSeg : Pipeline.RegionSeg (pcfgs (F := F)) noTables (regionDats m ρ) () defs₀ noVariants noLevels levelZero 1 where
  win := launch1.win.to₀
  block_pos := launch1.block_pos
  stage_whole := launch1.stage_whole
  K := PEmpty
  osem k := k.elim
  ho := Pipeline.OwnSemFacts.none _
  hbody c := (attn_body_obligation (E3 m ρ) c).loose
  hwaits := Pipeline.hwaits_of_owed_zero _ _ _ _ noLevels levelZero 1 fun _ _ => rfl
  pre c := iprop(StableHlo.held (c : Thread nD τ) (Pipeline.ucRefs τ sig) (B3 m ρ c) ∗ Rest c)
  post c := iprop(LastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (regionDats m ρ) launch1.win launch1.arr_whole c
      ((regionDats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m ρ) ((regionDats m ρ 1 c).share_full fun _ => rfl)
      (E3 m ρ c) (E4 m ρ c) ((regionDats m ρ 1 c).arrAt · cfg1.N) (attn_left m ρ c) (attn_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) noTables (regionDats m ρ) () defs₀ noVariants noLevels levelZero) :=
  [ .host (hostStretch hostOps0 hostOps0_sub hostOps0_fresh (B0 m ρ)),
    .region (qkvSeg m ρ),
    .host (hostStretch hostOps1 hostOps1_sub hostOps1_fresh (B2 m ρ)),
    .region (attnSeg m ρ) ]

theorem main_is_segs (c : Dev nD) : main (F := F) c = Pipeline.Seg.run (mainSegs m ρ) :=
  main_segs noTables (regionDats m ρ) () noVariants noLevels levelZero _ _ (qkvSeg m ρ) (attnSeg m ρ) rfl rfl c

set_option backward.isDefEq.respectTransparency.types false in
/-- THE RUN: from any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (regionDats m ρ) () cellOf_inj emb₁ defs₀ noVariants noLevels levelZero m ρ main (mainSegs m ρ)
    (fun c Q => by rw [main_is_segs m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := LastState m ρ)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c),
     (h c _ (mem_unscoped main_arg5 (by decide))).trans (B4_main_arg5 m ρ c),
     (h c _ (mem_unscoped main_arg6 (by decide))).trans (B4_main_arg6 m ρ c)⟩) (run_all m ρ)

/-- The run with the result buffer named: it ends at what the attention region's write-backs leave, the arguments as
    launched. -/
theorem run_result : θ_run defs (onTc (τ := τ) (main (F := F))) ⟨m, fun _ => 0, ρ⟩ (fun r => ∀ c : Dev nD,
      r.2.mem ((c.tc : Thread nD τ).loc main_v12) = (attnDat (E3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_v12 (by decide))).trans (B4_arr m ρ c 3),
     (h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c),
     (h c _ (mem_unscoped main_arg4 (by decide))).trans (B4_main_arg4 m ρ c),
     (h c _ (mem_unscoped main_arg5 (by decide))).trans (B4_main_arg5 m ρ c),
     (h c _ (mem_unscoped main_arg6 (by decide))).trans (B4_main_arg6 m ρ c)⟩) (run_all m ρ)

end Cert.Kernel.Frame

end
-- ==== Proof.AttnSpec.lean ====
/-
  The attention kernel's mathematics as plain functions on the extended reals, shared by both sides of the bridge.
  A projection entry is a row of activations against a column of weights plus the bias entry; a score is the dot
  product of a query row with a key row; the softmax of a score row is exp (s_j - max s) over the sum of those
  exponentials; an output entry is the softmax-weighted sum of one column of the values.
-/
import Idealize.ShloMosaic.PureOps.Ideal

noncomputable section

namespace Cert.AttnSpec

open Idealize.ShloMosaic

/-- One entry of a linear projection: the sum over the input features of activation times weight, plus the bias entry. -/
def proj {D : ℕ} (x w : Fin D → EReal) (b : EReal) : EReal := (∑ d : Fin D, x d * w d) + b

/-- The dot product of a query row with a key row. -/
def dotRow {D : ℕ} (q k : Fin D → EReal) : EReal := ∑ e : Fin D, q e * k e

/-- The maximum of a score row, taken from minus infinity. -/
def rowMax {M : ℕ} (s : Fin M → EReal) : EReal := (Finset.univ : Finset (Fin M)).fold max (⊥ : EReal) s

/-- The softmax weight of key j in a score row. -/
def softW {M : ℕ} (s : Fin M → EReal) (j : Fin M) : EReal :=
  Ideal.div (Ideal.exp (s j - rowMax s)) (∑ j' : Fin M, Ideal.exp (s j' - rowMax s))

/-- One output entry: the softmax weights of a score row against one column of the values. -/
def softAttn {M : ℕ} (s v : Fin M → EReal) : EReal := ∑ j : Fin M, softW s j * v j

end Cert.AttnSpec

end
-- ==== Proof.RefSpec.lean ====
/-
  The reference attention program read at an index is the shared specification.
  Each projection entry is the row of activations against the column of weights plus the bias entry; the scale is
  one over the square root of 1024; a score is the dot product of a query row with a key row times the scale;
  the row maximum taken from minus infinity, and once more against minus infinity, is the row maximum; the
  exponentials of the shifted scores are summed from zero; a probability is an exponential over that sum; an output
  entry is the probabilities of a row against one column of the values.
-/
import proofs.«151214_j36215164240477_2_alg».proof.Proof.Gen.ReferenceIdeal.Read
import proofs.«151214_j36215164240477_2_alg».proof.Proof.AttnSpec
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.ValueIdx
  Idealize.ShloMosaic.StableHlo Idealize.ShloMosaic.TcCoe Idealize.SL.Sem Cert.AttnSpec

/-! ## The specification's rows -/

/-- The reference's scale: one over the square root of 1024. -/
def scaleVal : EReal := Ideal.div (Ideal.ofBits .f32 0x3F800000#32) (Ideal.sqrt (Ideal.ofBits .f32 0x44800000#32))

/-- Row (b, n) of a projection of the activations: entry e is the activations' row against column e of the weights
    plus entry e of the bias. -/
def qRow (X : FVec Ideal S4x4096x1024 .f32) (W : FVec Ideal S1024x1024 .f32) (bias : FVec Ideal S1024 .f32)
    (b : Fin 4) (n : Fin 4096) : Fin 1024 → EReal :=
  fun e => proj (fun d : Fin 1024 => X (ix3 b n d)) (fun d => W (ix2 d e)) (bias (ix1 e))

/-! ## The projections at an index -/

/-- A row of activations against a column of weights plus a bias entry, the three read through index functions that
    are the coordinates' constructors, is the specification's projection entry. -/
theorem proj_core (X : FVec Ideal S4x4096x1024 .f32) (W : FVec Ideal S1024x1024 .f32) (bias : FVec Ideal S1024 .f32)
    (b : Fin 4) (n : Fin 4096) (e : Fin 1024) (l : Fin 1024 → S4x4096x1024.Idx) (r : Fin 1024 → S1024x1024.Idx)
    (c : S1024.Idx) (hl : ∀ k, l k = ix3 b n k) (hr : ∀ k, r k = ix2 k e) (hc : c = ix1 e) :
    FloatOps.addf (F := Ideal) (φ := .f32) (∑ k : Fin 1024, X (l k) * W (r k)) (bias c) = qRow X W bias b n e := by
  subst hc
  rw [Ideal.addf_def]
  unfold qRow proj
  exact congrArg (· + bias (ix1 e)) (Finset.sum_congr rfl fun k _ => by rw [hl k, hr k])

/-- The queries before scaling, at an index. -/
theorem q_apply (X : FVec Ideal S4x4096x1024 .f32) (W : FVec Ideal S1024x1024 .f32) (bias : FVec Ideal S1024 .f32)
    (b : Fin 4) (n : Fin 4096) (e : Fin 1024) :
    val_main_v3 (F := Ideal) X W bias (ix3 b n e) = qRow X W bias b n e := by
  rw [val_main_v3_apply, val_main_v0_apply, val_main_v2_apply, val_main_v1_apply]
  exact proj_core X W bias b n e _ _ _
    (fun k => funext fun a => Fin.ext (by match a with | ⟨0, _⟩ => rfl | ⟨1, _⟩ => rfl | ⟨2, _⟩ => rfl))
    (fun k => funext fun a => Fin.ext (by match a with | ⟨0, _⟩ => rfl | ⟨1, _⟩ => rfl))
    (funext fun a => Fin.ext (by match a with | ⟨0, _⟩ => rfl))

/-- The keys, at an index. -/
theorem k_apply (X : FVec Ideal S4x4096x1024 .f32) (W : FVec Ideal S1024x1024 .f32) (bias : FVec Ideal S1024 .f32)
    (b : Fin 4) (n : Fin 4096) (e : Fin 1024) :
    val_main_v7 (F := Ideal) X W bias (ix3 b n e) = qRow X W bias b n e := by
  rw [val_main_v7_apply, val_main_v4_apply, val_main_v6_apply, val_main_v5_apply]
  exact proj_core X W bias b n e _ _ _
    (fun k => funext fun a => Fin.ext (by match a with | ⟨0, _⟩ => rfl | ⟨1, _⟩ => rfl | ⟨2, _⟩ => rfl))
    (fun k => funext fun a => Fin.ext (by match a with | ⟨0, _⟩ => rfl | ⟨1, _⟩ => rfl))
    (funext fun a => Fin.ext (by match a with | ⟨0, _⟩ => rfl))

/-- The values, at an index. -/
theorem v_apply (X : FVec Ideal S4x4096x1024 .f32) (W : FVec Ideal S1024x1024 .f32) (bias : FVec Ideal S1024 .f32)
    (b : Fin 4) (n : Fin 4096) (e : Fin 1024) :
    val_main_v11 (F := Ideal) X W bias (ix3 b n e) = qRow X W bias b n e := by
  rw [val_main_v11_apply, val_main_v8_apply, val_main_v10_apply, val_main_v9_apply]
  exact proj_core X W bias b n e _ _ _
    (fun k => funext fun a => Fin.ext (by match a with | ⟨0, _⟩ => rfl | ⟨1, _⟩ => rfl | ⟨2, _⟩ => rfl))
    (fun k => funext fun a => Fin.ext (by match a with | ⟨0, _⟩ => rfl | ⟨1, _⟩ => rfl))
    (funext fun a => Fin.ext (by match a with | ⟨0, _⟩ => rfl))

/-! ## The scale and the scores at an index -/

/-- The broadcast scale is the scale at every index. -/
theorem scale_apply (i : S4x4096x4096.Idx) : val_main_v15 (F := Ideal) i = scaleVal := by
  rw [val_main_v15_apply, val_main_v13_apply, val_main_cst_0_apply, val_main_v12_apply, val_main_cst_apply]
  rfl

/-- A score: the query row against the key row, times the scale. -/
theorem score_apply (X : FVec Ideal S4x4096x1024 .f32) (Wq Wk : FVec Ideal S1024x1024 .f32) (bq bk : FVec Ideal S1024 .f32)
    (b : Fin 4) (n j : Fin 4096) :
    val_main_v16 (F := Ideal) X Wq Wk bq bk (ix3 b n j)
      = dotRow (qRow X Wq bq b n) (qRow X Wk bk b j) * scaleVal := by
  rw [val_main_v16_apply, val_main_v14_apply, scale_apply, Ideal.mulf_def]
  unfold dotRow
  refine congrArg (· * scaleVal) (Finset.sum_congr rfl fun k _ => ?_)
  have hl : lidx_main_v14 (ix3 b n j) k = ix3 b n k :=
    funext fun a => Fin.ext (by match a with | ⟨0, _⟩ => rfl | ⟨1, _⟩ => rfl | ⟨2, _⟩ => rfl)
  have hr : ridx_main_v14 (ix3 b n j) k = ix3 b j k :=
    funext fun a => Fin.ext (by match a with | ⟨0, _⟩ => rfl | ⟨1, _⟩ => rfl | ⟨2, _⟩ => rfl)
  rw [hl, hr, q_apply, k_apply]

/-! ## The row maximum -/

/-- Minus infinity's pattern denotes the bottom of the extended reals. -/
theorem ofBits_neg_inf : Ideal.ofBits .f32 0xFF800000#32 = (⊥ : EReal) := by simp [Ideal.ofBits, Ideal.ieee]

/-- A row's index with the key coordinate put back. -/
theorem lift_ix3 (h : S4x4096x4096.Reduces [2] S4x4096) (b : Fin 4) (n : Fin 4096) (k : Fin (S4x4096x4096.size 2)) :
    h.lift (ix2 b n) k = ix3 b n (⟨k.val, k.isLt⟩ : Fin 4096) := by
  funext c; apply Fin.ext
  fin_cases c <;> rfl

/-- The maximum reduction over the key axis from minus infinity, at row (b, n), is the row maximum. -/
theorem rowmax_core (s : FVec Ideal S4x4096x4096 .f32) (h' : S4x4096x4096.ReducesTo [2] S4x4096) (hu : 0 < S_.numel)
    (b : Fin 4) (n : Fin 4096) :
    Host.reduce FloatOps.maximumf s (val_main_cst_1 (F := Ideal)) h' hu (ix2 b n)
      = rowMax (fun j : Fin 4096 => s (ix3 b n j)) := by
  have h : S4x4096x4096.Reduces [2] S4x4096 := by decide
  rw [Host.reduce_eq_fold_single FloatOps.maximumf s _ h' h hu, val_main_cst_1_apply, Ideal.ofBits_def, ofBits_neg_inf]
  have hf : (s ∘ h.lift (ix2 b n)) = fun k : Fin 4096 => s (ix3 b n k) := funext fun k => congrArg s (lift_ix3 h b n k)
  unfold rowMax
  exact congrArg (fun f => Finset.fold max (⊥ : EReal) f (Finset.univ : Finset (Fin 4096))) hf

/-- The row maximum taken once more against minus infinity, at row (b, n), is the row maximum of the scores. -/
theorem rowmax_apply (X : FVec Ideal S4x4096x1024 .f32) (Wq Wk : FVec Ideal S1024x1024 .f32) (bq bk : FVec Ideal S1024 .f32)
    (b : Fin 4) (n : Fin 4096) :
    val_main_v19 (F := Ideal) X Wq Wk bq bk (ix2 b n)
      = rowMax (fun j : Fin 4096 => val_main_v16 (F := Ideal) X Wq Wk bq bk (ix3 b n j)) := by
  rw [val_main_v19_apply, val_main_v18_apply, val_main_cst_2_apply, Ideal.maximumf_def, Ideal.ofBits_def, ofBits_neg_inf]
  unfold val_main_v17
  generalize val_main_v16 (F := Ideal) X Wq Wk bq bk = s
  rw [rowmax_core]
  exact max_eq_right bot_le

/-! ## The exponentials, their sum, the probabilities -/

/-- An exponential of a shifted score. -/
theorem exp_apply (X : FVec Ideal S4x4096x1024 .f32) (Wq Wk : FVec Ideal S1024x1024 .f32) (bq bk : FVec Ideal S1024 .f32)
    (b : Fin 4) (n j : Fin 4096) :
    val_main_v23 (F := Ideal) X Wq Wk bq bk (ix3 b n j)
      = Ideal.exp (val_main_v16 (F := Ideal) X Wq Wk bq bk (ix3 b n j)
          - rowMax (fun j' : Fin 4096 => val_main_v16 (F := Ideal) X Wq Wk bq bk (ix3 b n j'))) := by
  rw [val_main_v23_apply, val_main_v22_apply, val_main_v21_apply, val_main_v20_apply, Ideal.hostUnary_exp_def,
    Ideal.subf_def]
  have hi : idx_main_v20 (idx_main_v21 (ix3 b n j)) = ix2 b n :=
    funext fun a => Fin.ext (by match a with | ⟨0, _⟩ => rfl | ⟨1, _⟩ => rfl)
  rw [hi, rowmax_apply]

/-- The sum from zero of a row's exponentials. -/
theorem rowsum_apply (X : FVec Ideal S4x4096x1024 .f32) (Wq Wk : FVec Ideal S1024x1024 .f32) (bq bk : FVec Ideal S1024 .f32)
    (b : Fin 4) (n : Fin 4096) :
    val_main_v24 (F := Ideal) X Wq Wk bq bk (ix2 b n)
      = ∑ j : Fin 4096, val_main_v23 (F := Ideal) X Wq Wk bq bk (ix3 b n j) := by
  rw [val_main_v24_apply, val_main_cst_3_apply, Ideal.ofBits_def, Ideal.ofBits_zero_f32, zero_add]
  refine Finset.sum_congr rfl fun k _ => congrArg _ ?_
  exact funext fun a => Fin.ext (by match a with | ⟨0, _⟩ => rfl | ⟨1, _⟩ => rfl | ⟨2, _⟩ => rfl)

/-- A probability: the softmax weight of key j in the score row. -/
theorem prob_apply (X : FVec Ideal S4x4096x1024 .f32) (Wq Wk : FVec Ideal S1024x1024 .f32) (bq bk : FVec Ideal S1024 .f32)
    (b : Fin 4) (n j : Fin 4096) :
    val_main_v27 (F := Ideal) X Wq Wk bq bk (ix3 b n j)
      = softW (fun j' : Fin 4096 => val_main_v16 (F := Ideal) X Wq Wk bq bk (ix3 b n j')) j := by
  rw [val_main_v27_apply, val_main_v26_apply, val_main_v25_apply, Ideal.hostDivf_def]
  have hi : idx_main_v25 (idx_main_v26 (ix3 b n j)) = ix2 b n :=
    funext fun a => Fin.ext (by match a with | ⟨0, _⟩ => rfl | ⟨1, _⟩ => rfl)
  rw [hi, rowsum_apply, exp_apply]
  unfold softW
  exact congrArg (Ideal.div _) (Finset.sum_congr rfl fun k _ => exp_apply X Wq Wk bq bk b n k)

/-! ## The output at an index, and the run's result -/

/-- The reference's result at (b, n, e) is the specification: the softmax of the scaled score row against column e
    of the values. -/
theorem ref_apply (X : FVec Ideal S4x4096x1024 .f32) (Wq Wk Wv : FVec Ideal S1024x1024 .f32)
    (bq bk bv : FVec Ideal S1024 .f32) (b : Fin 4) (n : Fin 4096) (e : Fin 1024) :
    val_main_v28 (F := Ideal) X Wq Wk Wv bq bk bv (ix3 b n e)
      = softAttn (fun j : Fin 4096 => dotRow (qRow X Wq bq b n) (qRow X Wk bk b j) * scaleVal)
          (fun j : Fin 4096 => qRow X Wv bv b j e) := by
  rw [val_main_v28_apply]
  unfold softAttn
  have hs : (fun j : Fin 4096 => val_main_v16 (F := Ideal) X Wq Wk bq bk (ix3 b n j))
      = fun j : Fin 4096 => dotRow (qRow X Wq bq b n) (qRow X Wk bk b j) * scaleVal :=
    funext fun j => score_apply X Wq Wk bq bk b n j
  rw [← hs]
  refine Finset.sum_congr rfl fun k _ => ?_
  have hl : lidx_main_v28 (ix3 b n e) k = ix3 b n k :=
    funext fun a => Fin.ext (by match a with | ⟨0, _⟩ => rfl | ⟨1, _⟩ => rfl | ⟨2, _⟩ => rfl)
  have hr : ridx_main_v28 (ix3 b n e) k = ix3 b k e :=
    funext fun a => Fin.ext (by match a with | ⟨0, _⟩ => rfl | ⟨1, _⟩ => rfl | ⟨2, _⟩ => rfl)
  rw [hl, hr, prob_apply, v_apply]

/-- The run's result array is the last stage of the arguments' launch contents. -/
theorem res_eq (m : (ℓ : Loc nD τ sig) → Buf (Elt Ideal) ℓ) (c : Dev nD) :
    Cert.ReferenceIdeal.Value.res_main_v28 (F := Ideal) m c
      = val_main_v28 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  val_main_v28_eq m c

end Cert.ReferenceIdeal.RefSpec

end
-- ==== Proof.FiniteInputs.lean ====
/-
  From the precondition to real entries. The precondition says that, on every device, the conjunction over the seven
  argument arrays of "every entry x has max x (-x) < +∞" is true. Over the extended reals max x (-x) < +∞ rules out
  both infinities, so every entry of every argument is a real number. The conjunction of bits is 1 exactly when each
  conjunct is 1, and a reduction by "and" over all axes that gives 1 had a 1 at every index.
-/
import proofs.«151214_j36215164240477_2_alg».proof.Defs
import Idealize.ShloMosaic.Lib.ReduceAll
import Idealize.ShloMosaic.Lib.ValueIdx
import Idealize.ShloMosaic.PureOps.Ideal
import Idealize.ShloMosaic.PureOps.Ideal.Laws

noncomputable section

namespace Cert.KernelIdeal.FiniteInputs

open Idealize.ShloMosaic Idealize.ShloMosaic.ValueIdx Idealize.SL.Sem

/-- The scalar shape has one index. -/
instance : Subsingleton Cert.Pre_finite_inputs.S_.Idx := ⟨fun a b => funext fun d => d.elim0⟩

/-- The word 0x7F800000 is +∞. -/
theorem ofBits_inf_f32 : Ideal.ofBits .f32 0x7F800000#32 = (⊤ : EReal) := by simp [Ideal.ofBits, Ideal.ieee]

/-- An extended real whose absolute value max x (-x) is below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One conjunct of the precondition: if the "and" over all axes of the array of bits "|x i| < +∞" is 1, every entry
    of x is a real number. -/
theorem all_real_of_reduce {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (init : IVec Cert.Pre_finite_inputs.S_ 1)
    (hu : 0 < Cert.Pre_finite_inputs.S_.numel)
    (e : Host.reduce IntOp.andi
          (cmpf .olt (Host.absf x) (broadcastInDim s ![] hb (constant Cert.Pre_finite_inputs.S_ .f32 0x7F800000#32)))
          init hr hu ix0 = 1#1)
    (i : s.Idx) : ∃ r : ℝ, x i = (r : EReal) :=
  real_of_abs_lt_inf (x i) (Host.reduce_andi_all _ init hr hu ix0 e i)

/-- A conjunction of two arrays of bits read at an index is 1 exactly when both bits are. -/
theorem andi_apply_eq_one {s : Shape} (a b : IVec s 1) (i : s.Idx) (h : andi a b i = 1#1) : a i = 1#1 ∧ b i = 1#1 :=
  IntOp.andi_eq_one.1 h

/-- Under the precondition every entry of every argument array is a real number, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x4096x1024.Idx, ∃ r : ℝ,
        (m ((c.tc : Thread Cert.KernelIdeal.nD Cert.KernelIdeal.τ).loc Cert.KernelIdeal.main_arg0)
          : FVec Ideal Cert.KernelIdeal.S4x4096x1024 .f32) i = (r : EReal)) ∧
    (∀ i : Cert.KernelIdeal.S1024x1024.Idx, ∃ r : ℝ,
        (m ((c.tc : Thread Cert.KernelIdeal.nD Cert.KernelIdeal.τ).loc Cert.KernelIdeal.main_arg1)
          : FVec Ideal Cert.KernelIdeal.S1024x1024 .f32) i = (r : EReal)) ∧
    (∀ i : Cert.KernelIdeal.S1024x1024.Idx, ∃ r : ℝ,
        (m ((c.tc : Thread Cert.KernelIdeal.nD Cert.KernelIdeal.τ).loc Cert.KernelIdeal.main_arg2)
          : FVec Ideal Cert.KernelIdeal.S1024x1024 .f32) i = (r : EReal)) ∧
    (∀ i : Cert.KernelIdeal.S1024x1024.Idx, ∃ r : ℝ,
        (m ((c.tc : Thread Cert.KernelIdeal.nD Cert.KernelIdeal.τ).loc Cert.KernelIdeal.main_arg3)
          : FVec Ideal Cert.KernelIdeal.S1024x1024 .f32) i = (r : EReal)) ∧
    (∀ i : Cert.KernelIdeal.S1024.Idx, ∃ r : ℝ,
        (m ((c.tc : Thread Cert.KernelIdeal.nD Cert.KernelIdeal.τ).loc Cert.KernelIdeal.main_arg4)
          : FVec Ideal Cert.KernelIdeal.S1024 .f32) i = (r : EReal)) ∧
    (∀ i : Cert.KernelIdeal.S1024.Idx, ∃ r : ℝ,
        (m ((c.tc : Thread Cert.KernelIdeal.nD Cert.KernelIdeal.τ).loc Cert.KernelIdeal.main_arg5)
          : FVec Ideal Cert.KernelIdeal.S1024 .f32) i = (r : EReal)) ∧
    (∀ i : Cert.KernelIdeal.S1024.Idx, ∃ r : ℝ,
        (m ((c.tc : Thread Cert.KernelIdeal.nD Cert.KernelIdeal.τ).loc Cert.KernelIdeal.main_arg6)
          : FVec Ideal Cert.KernelIdeal.S1024 .f32) i = (r : EReal)) := by
  have H := congrFun (h c) ix0
  dsimp only [Cert.Pre_finite_inputs.fn, Cert.Pre_finite_inputs.fn_part1] at H
  obtain ⟨H, h6⟩ := andi_apply_eq_one _ _ _ H
  obtain ⟨H, h5⟩ := andi_apply_eq_one _ _ _ H
  obtain ⟨H, h4⟩ := andi_apply_eq_one _ _ _ H
  obtain ⟨H, h3⟩ := andi_apply_eq_one _ _ _ H
  obtain ⟨H, h2⟩ := andi_apply_eq_one _ _ _ H
  obtain ⟨h0, h1⟩ := andi_apply_eq_one _ _ _ H
  exact ⟨all_real_of_reduce _ _ _ _ _ h0, all_real_of_reduce _ _ _ _ _ h1, all_real_of_reduce _ _ _ _ _ h2,
    all_real_of_reduce _ _ _ _ _ h3, all_real_of_reduce _ _ _ _ _ h4, all_real_of_reduce _ _ _ _ _ h5,
    all_real_of_reduce _ _ _ _ _ h6⟩

end Cert.KernelIdeal.FiniteInputs

end
-- ==== Proof.ScaleAlgebra.lean ====
/-
  The algebra joining the two sides of the attention bridge, on the extended reals, at finite (real-valued) entries.

  One side folds the score scale s = 1/32 into the query weights and the query bias; the other multiplies every score
  by 1 / sqrt 1024.  First, both spellings of the scale denote the real 1/32.  Second, a query projection with weights
  w * s and bias b * s is s times the plain projection, so a score (the dot product of a query row with a key row)
  picks up the factor s exactly once:
      sum_e (sum_d x_d * (w_de * s) + b_e * s) * k_e  =  (sum_e (sum_d x_d * w_de + b_e) * k_e) * s.
  Every entry being a real, the sums and products of the extended reals are the coercions of the real ones, and the
  identity is distributivity in the reals.  Third, the two score rows being equal, the softmax-weighted outputs are
  equal; the softmax itself is never opened.
-/
import Idealize.ShloMosaic.PureOps.Ideal
import proofs.«151214_j36215164240477_2_alg».proof.Proof.AttnSpec

noncomputable section

namespace Cert.AttnSpec.Algebra

open Idealize.ShloMosaic

/-! ### The two spellings of the scale -/

/-- The binary32 word of 0.03125 denotes the real 1/32. -/
theorem ofBits_scale : Ideal.ofBits .f32 0x3D000000#32 = ((1/32 : ℝ) : EReal) := by
  simp [Ideal.ofBits, Ideal.ieee, -EReal.coe_mul]; norm_num

/-- The binary32 word of 1.0 denotes the real 1. -/
theorem ofBits_one : Ideal.ofBits .f32 0x3F800000#32 = ((1 : ℝ) : EReal) := by
  simp [Ideal.ofBits, Ideal.ieee, -EReal.coe_mul]; norm_num

/-- The binary32 word of 1024.0 denotes the real 1024. -/
theorem ofBits_1024 : Ideal.ofBits .f32 0x44800000#32 = ((1024 : ℝ) : EReal) := by
  simp [Ideal.ofBits, Ideal.ieee, -EReal.coe_mul]; norm_num

/-- The square root of 1024 is 32, since 32 * 32 = 1024 and 32 is not negative. -/
theorem sqrt_1024 : Real.sqrt 1024 = 32 := by
  rw [show (1024 : ℝ) = 32 * 32 by norm_num]
  exact Real.sqrt_mul_self (by norm_num)

/-- 1.0 / sqrt 1024.0 denotes the real 1/32. -/
theorem scaleVal_eq :
    Ideal.div (Ideal.ofBits .f32 0x3F800000#32) (Ideal.sqrt (Ideal.ofBits .f32 0x44800000#32))
      = ((1/32 : ℝ) : EReal) := by
  rw [ofBits_one, ofBits_1024, Ideal.sqrt_coe, if_neg (by norm_num), sqrt_1024,
    Ideal.div_coe (by norm_num), ← EReal.coe_mul, one_mul]

/-! ### Sums and projections of reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A projection of reals is a real: the real sum of products plus the real bias. -/
theorem proj_real {D : ℕ} (x w : Fin D → ℝ) (b : ℝ) :
    Cert.AttnSpec.proj (fun d => (x d : EReal)) (fun d => (w d : EReal)) (b : EReal)
      = ((∑ d, x d * w d + b : ℝ) : EReal) := by
  unfold Cert.AttnSpec.proj
  rw [EReal.coe_add, coe_sum]
  simp only [EReal.coe_mul]

/-- A dot product of reals is a real. -/
theorem dotRow_real {E : ℕ} (q k : Fin E → ℝ) :
    Cert.AttnSpec.dotRow (fun e => (q e : EReal)) (fun e => (k e : EReal)) = ((∑ e, q e * k e : ℝ) : EReal) := by
  unfold Cert.AttnSpec.dotRow
  rw [coe_sum]
  simp only [EReal.coe_mul]

/-! ### The folded scale -/

/-- The scale folded into the query weights and bias comes out of the score: the dot product of the scaled query
    projection with a key row is the dot product of the plain query projection with that key row, times the scale. -/
theorem dotRow_scaled {D E : ℕ} (x : Fin D → ℝ) (wq : Fin D → Fin E → ℝ) (bq kk : Fin E → ℝ) (s : ℝ) :
    Cert.AttnSpec.dotRow
        (fun e : Fin E => Cert.AttnSpec.proj (fun d => (x d : EReal)) (fun d => (wq d e : EReal) * (s : EReal))
          ((bq e : EReal) * (s : EReal)))
        (fun e => (kk e : EReal))
      = Cert.AttnSpec.dotRow
          (fun e : Fin E => Cert.AttnSpec.proj (fun d => (x d : EReal)) (fun d => (wq d e : EReal)) (bq e : EReal))
          (fun e => (kk e : EReal)) * (s : EReal) := by
  have hL : (fun e : Fin E => Cert.AttnSpec.proj (fun d => (x d : EReal)) (fun d => (wq d e : EReal) * (s : EReal))
        ((bq e : EReal) * (s : EReal)))
      = fun e : Fin E => ((∑ d, x d * (wq d e * s) + bq e * s : ℝ) : EReal) := by
    funext e
    rw [← proj_real]
    simp only [EReal.coe_mul]
  have hR : (fun e : Fin E => Cert.AttnSpec.proj (fun d => (x d : EReal)) (fun d => (wq d e : EReal)) (bq e : EReal))
      = fun e : Fin E => ((∑ d, x d * wq d e + bq e : ℝ) : EReal) :=
    funext fun e => proj_real _ _ _
  rw [hL, hR, dotRow_real, dotRow_real, ← EReal.coe_mul]
  congr 1
  rw [Finset.sum_mul]
  refine Finset.sum_congr rfl fun e _ => ?_
  have h : ∑ d, x d * (wq d e * s) = (∑ d, x d * wq d e) * s := by
    rw [Finset.sum_mul]
    exact Finset.sum_congr rfl fun d _ => by ring
  rw [h]
  ring

/-! ### The join -/

/-- A family of extended reals whose entries are all reals is the coercion of a real family. -/
theorem exists_real1 {α : Type*} (f : α → EReal) (h : ∀ a, ∃ r : ℝ, f a = r) :
    ∃ g : α → ℝ, f = fun a => (g a : EReal) :=
  ⟨fun a => Classical.choose (h a), funext fun a => Classical.choose_spec (h a)⟩

/-- The same for a family with two indices. -/
theorem exists_real2 {α β : Type*} (f : α → β → EReal) (h : ∀ a b, ∃ r : ℝ, f a b = r) :
    ∃ g : α → β → ℝ, f = fun a b => (g a b : EReal) :=
  ⟨fun a b => Classical.choose (h a b), funext fun a => funext fun b => Classical.choose_spec (h a b)⟩

/-- Attention with the scale folded into the query projection equals attention with the scores scaled afterwards, when
    every activation, weight and bias entry is a real and both scales are 1/32.  Only the score rows differ, and they
    are equal entry by entry by the folded-scale law, each key entry being a real as a projection of reals. -/
theorem attention_scale_fold {N D E : ℕ} (X : Fin N → Fin D → EReal) (Wq Wk Wv : Fin D → Fin E → EReal)
    (bq bk bv : Fin E → EReal)
    (hX : ∀ n d, ∃ r : ℝ, X n d = r) (hWq : ∀ d e, ∃ r : ℝ, Wq d e = r) (hWk : ∀ d e, ∃ r : ℝ, Wk d e = r)
    (hWv : ∀ d e, ∃ r : ℝ, Wv d e = r) (hbq : ∀ e, ∃ r : ℝ, bq e = r) (hbk : ∀ e, ∃ r : ℝ, bk e = r)
    (hbv : ∀ e, ∃ r : ℝ, bv e = r) (sk sr : EReal) (hsk : sk = ((1/32 : ℝ) : EReal))
    (hsr : sr = ((1/32 : ℝ) : EReal)) (n : Fin N) (e : Fin E) :
    Cert.AttnSpec.softAttn
        (fun j : Fin N => Cert.AttnSpec.dotRow
          (fun e' => Cert.AttnSpec.proj (X n) (fun d => Wq d e' * sk) (bq e' * sk))
          (fun e' => Cert.AttnSpec.proj (X j) (fun d => Wk d e') (bk e')))
        (fun j => Cert.AttnSpec.proj (X j) (fun d => Wv d e) (bv e))
      = Cert.AttnSpec.softAttn
          (fun j : Fin N => Cert.AttnSpec.dotRow
            (fun e' => Cert.AttnSpec.proj (X n) (fun d => Wq d e') (bq e'))
            (fun e' => Cert.AttnSpec.proj (X j) (fun d => Wk d e') (bk e')) * sr)
          (fun j => Cert.AttnSpec.proj (X j) (fun d => Wv d e) (bv e)) := by
  obtain ⟨x, rfl⟩ := exists_real2 X hX
  obtain ⟨wq, rfl⟩ := exists_real2 Wq hWq
  obtain ⟨wk, rfl⟩ := exists_real2 Wk hWk
  obtain ⟨bqr, rfl⟩ := exists_real1 bq hbq
  obtain ⟨bkr, rfl⟩ := exists_real1 bk hbk
  subst hsk hsr
  refine congrArg (fun s => Cert.AttnSpec.softAttn s _) (funext fun j => ?_)
  have hK : (fun e' : Fin E => Cert.AttnSpec.proj (fun d => (x j d : EReal)) (fun d => (wk d e' : EReal)) (bkr e' : EReal))
      = fun e' : Fin E => ((∑ d, x j d * wk d e' + bkr e' : ℝ) : EReal) :=
    funext fun e' => proj_real _ _ _
  show Cert.AttnSpec.dotRow
        (fun e' : Fin E => Cert.AttnSpec.proj (fun d => (x n d : EReal)) (fun d => (wq d e' : EReal) * ((1/32 : ℝ) : EReal))
          ((bqr e' : EReal) * ((1/32 : ℝ) : EReal)))
        (fun e' : Fin E => Cert.AttnSpec.proj (fun d => (x j d : EReal)) (fun d => (wk d e' : EReal)) (bkr e' : EReal))
      = Cert.AttnSpec.dotRow
          (fun e' : Fin E => Cert.AttnSpec.proj (fun d => (x n d : EReal)) (fun d => (wq d e' : EReal)) (bqr e' : EReal))
          (fun e' : Fin E => Cert.AttnSpec.proj (fun d => (x j d : EReal)) (fun d => (wk d e' : EReal)) (bkr e' : EReal))
          * ((1/32 : ℝ) : EReal)
  rw [hK]
  exact dotRow_scaled (x n) wq bqr _ (1/32)

end Cert.AttnSpec.Algebra

end
-- ==== Proof.JoinSpec.lean ====
/-
  The two sides of the bridge meet at an index. The kernel computes attention with the scale 1/32 folded into the
  query weights and bias: the query entry is x·(Wq·s) + bq·s, and the score is the plain dot product of that query row
  with the key row. The reference computes the unscaled query and multiplies each score by 1/sqrt(1024). Both scales are
  the real 1/32, and with every input entry a real number the scale distributes through the query's sum and out of the
  dot product, so the two score rows agree and so do the softmax-weighted sums of the values.
-/
import proofs.«151214_j36215164240477_2_alg».proof.Proof.RefSpec
import proofs.«151214_j36215164240477_2_alg».proof.Proof.ScaleAlgebra
import proofs.«151214_j36215164240477_2_alg».proof.Proof.AttnSpec
import Idealize.ShloMosaic.Lib.ValueIdx
import Idealize.ShloMosaic.PureOps.Ideal

noncomputable section

namespace Cert.KernelIdeal.JoinSpec

open Idealize.ShloMosaic Idealize.ShloMosaic.ValueIdx

/-- The kernel's form of one output entry (b, n, e): the softmax of the score row whose query has the scale folded into
    its weights and bias, against column e of the values. -/
def kernelForm (X : FVec Ideal Cert.ReferenceIdeal.S4x4096x1024 .f32)
    (Wq Wk Wv : FVec Ideal Cert.ReferenceIdeal.S1024x1024 .f32) (bq bk bv : FVec Ideal Cert.ReferenceIdeal.S1024 .f32)
    (b : Fin 4) (n : Fin 4096) (e : Fin 1024) : EReal :=
  Cert.AttnSpec.softAttn
    (fun j : Fin 4096 => Cert.AttnSpec.dotRow
      (fun e' : Fin 1024 => Cert.AttnSpec.proj (fun d : Fin 1024 => X (ix3 b n d))
        (fun d : Fin 1024 => Wq (ix2 d e') * Ideal.ofBits .f32 0x3D000000#32)
        (bq (ix1 e') * Ideal.ofBits .f32 0x3D000000#32))
      (fun e' : Fin 1024 => Cert.AttnSpec.proj (fun d : Fin 1024 => X (ix3 b j d))
        (fun d : Fin 1024 => Wk (ix2 d e')) (bk (ix1 e'))))
    (fun j : Fin 4096 => Cert.AttnSpec.proj (fun d : Fin 1024 => X (ix3 b j d))
      (fun d : Fin 1024 => Wv (ix2 d e)) (bv (ix1 e)))

/-- With every input entry a real number, the kernel's form of an output entry is the reference's output entry. -/
theorem kernelForm_eq_ref (X : FVec Ideal Cert.ReferenceIdeal.S4x4096x1024 .f32)
    (Wq Wk Wv : FVec Ideal Cert.ReferenceIdeal.S1024x1024 .f32) (bq bk bv : FVec Ideal Cert.ReferenceIdeal.S1024 .f32)
    (hX : ∀ i, ∃ r : ℝ, X i = (r : EReal)) (hWq : ∀ i, ∃ r : ℝ, Wq i = (r : EReal))
    (hWk : ∀ i, ∃ r : ℝ, Wk i = (r : EReal)) (hWv : ∀ i, ∃ r : ℝ, Wv i = (r : EReal))
    (hbq : ∀ i, ∃ r : ℝ, bq i = (r : EReal)) (hbk : ∀ i, ∃ r : ℝ, bk i = (r : EReal))
    (hbv : ∀ i, ∃ r : ℝ, bv i = (r : EReal)) (b : Fin 4) (n : Fin 4096) (e : Fin 1024) :
    kernelForm X Wq Wk Wv bq bk bv b n e
      = Cert.ReferenceIdeal.Read.val_main_v28 (F := Ideal) X Wq Wk Wv bq bk bv (ix3 b n e) := by
  rw [Cert.ReferenceIdeal.RefSpec.ref_apply]
  unfold kernelForm Cert.ReferenceIdeal.RefSpec.qRow Cert.ReferenceIdeal.RefSpec.scaleVal
  exact Cert.AttnSpec.Algebra.attention_scale_fold (N := 4096) (D := 1024) (E := 1024)
    (fun n d => X (ix3 b n d)) (fun d e => Wq (ix2 d e)) (fun d e => Wk (ix2 d e)) (fun d e => Wv (ix2 d e))
    (fun e => bq (ix1 e)) (fun e => bk (ix1 e)) (fun e => bv (ix1 e))
    (fun n d => hX (ix3 b n d)) (fun d e => hWq (ix2 d e)) (fun d e => hWk (ix2 d e)) (fun d e => hWv (ix2 d e))
    (fun e => hbq (ix1 e)) (fun e => hbk (ix1 e)) (fun e => hbv (ix1 e))
    _ _ Cert.AttnSpec.Algebra.ofBits_scale Cert.AttnSpec.Algebra.scaleVal_eq n e

end Cert.KernelIdeal.JoinSpec

end
-- ==== Proof.QkvBody.lean ====
/-
  The projection kernel body at the extended reals, read at an index. The body multiplies the activation block x
  [1024,1024] into the fused weight block w [1024,3072] starting from the zero matrix, adds the bias row b [3072]
  broadcast down the rows, and stores columns [0,1024), [1024,2048) and [2048,3072) of the result as the three outputs.
  At the extended reals the narrowing format changes are the identity and the matrix product is the plain sum over the
  contracted axis, so the entry (p, j) of the fused result is (∑ d, x[p,d] * w[d,j]) + b[j], and the entry (p, c) of
  the three stored values is that at column c, 1024 + c and 2048 + c.
-/
import proofs.«151214_j36215164240477_2_alg».proof.Proof.Gen.KernelIdeal.Skeleton
import proofs.«151214_j36215164240477_2_alg».proof.Proof.AttnSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.QkvBody

open Idealize.ShloMosaic Idealize.ShloMosaic.ValueIdx Cert.KernelIdeal Cert.KernelIdeal.Gen

/-- The body's matrix product keeps the left operand's row axis: its coordinate on axis 0 is the output's row. -/
theorem lhs_0 (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide),
    dif_pos (show (0 : Fin S1024x1024.rank) ∈ dot_S1024x1024_S1024x3072_S1024x3072_1_0_0_1_n_n.lhsNonContracting by decide)]
  rfl

/-- The left operand's column axis is the contracted one. -/
theorem lhs_1 (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q

/-- The right operand's row axis is the contracted one. -/
theorem rhs_0 (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q

/-- The right operand's column axis is the output's column. -/
theorem rhs_1 (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide),
    dif_pos (show (1 : Fin S1024x3072.rank) ∈ dot_S1024x1024_S1024x3072_S1024x3072_1_0_0_1_n_n.rhsNonContracting by decide)]
  rfl

/-- The contraction has one axis, of extent 1024: the left operand at output index (p, j) and contraction
    coordinate k is x[p, k] … -/
theorem lhsIdx_eq (p : Fin 1024) (j : Fin 3072) (k : Fin 1024) :
    dot_S1024x1024_S1024x3072_S1024x3072_1_0_0_1_n_n.lhsIdx (ix2 p j)
        ((contrEquiv1 dot_S1024x1024_S1024x3072_S1024x3072_1_0_0_1_n_n 1024 rfl rfl).symm k) = ix2 p k := by
  have hk := contrEquiv1_symm_val dot_S1024x1024_S1024x3072_S1024x3072_1_0_0_1_n_n 1024 rfl rfl k
  exact funext fun a => Fin.ext (by
    match a with
    | ⟨0, _⟩ => exact lhs_0 _ _
    | ⟨1, _⟩ => exact (lhs_1 _ _).trans hk)

/-- … and the right operand is w[k, j]. -/
theorem rhsIdx_eq (p : Fin 1024) (j : Fin 3072) (k : Fin 1024) :
    dot_S1024x1024_S1024x3072_S1024x3072_1_0_0_1_n_n.rhsIdx (ix2 p j)
        ((contrEquiv1 dot_S1024x1024_S1024x3072_S1024x3072_1_0_0_1_n_n 1024 rfl rfl).symm k) = ix2 k j := by
  have hk := contrEquiv1_symm_val dot_S1024x1024_S1024x3072_S1024x3072_1_0_0_1_n_n 1024 rfl rfl k
  exact funext fun a => Fin.ext (by
    match a with
    | ⟨0, _⟩ => exact (rhs_0 _ _).trans hk
    | ⟨1, _⟩ => exact rhs_1 _ _)

/-- The fused projection before slicing: entry (p, j) is the row p of x against column j of w, plus b[j]. -/
theorem qkv_pay1_apply (x : Vec Ideal S1024x1024 .f32) (w : Vec Ideal S1024x3072 .bf16) (b : Vec Ideal S3072 .f32)
    (p : Fin 1024) (j : Fin 3072) :
    k0_pay1 (F := Ideal) x w b (ix2 p j)
      = Cert.AttnSpec.proj (fun d : Fin 1024 => x (ix2 p d)) (fun d : Fin 1024 => w (ix2 d j)) (b (ix1 j)) := by
  unfold k0_pay1 Cert.AttnSpec.proj
  simp only [shapeCast_self]
  rw [addf_apply]
  congr 1
  · simp only [matmul]
    rw [Ideal.matmul_constant_zero_apply,
      ← Equiv.sum_comp (contrEquiv1 dot_S1024x1024_S1024x3072_S1024x3072_1_0_0_1_n_n 1024 rfl rfl).symm]
    refine Finset.sum_congr rfl fun k _ => ?_
    rw [lhsIdx_eq, rhsIdx_eq]
    rfl
  · refine (broadcastTo_apply _ broadcasts_S1x3072_S1024x3072 (ix2 p j) (ix2 (⟨0, Nat.one_pos⟩ : Fin 1) j) (fun a => ?_)).trans ?_
    · match a with
      | ⟨0, _⟩ => show 0 = if (1 : Nat) = 1 then 0 else _; rw [if_pos rfl]
      | ⟨1, _⟩ => show j.val = if (3072 : Nat) = 1 then 0 else j.val; rw [if_neg (by decide)]
    · refine (shapeCast_addUnit_apply ![3072] b shapeCasts_S3072_S1x3072 (ix2 (⟨0, Nat.one_pos⟩ : Fin 1) j)).trans ?_
      exact congrArg b (funext fun a => match a with | ⟨0, _⟩ => rfl)

/-- A stored value is a block of 1024 columns of a [1024, 3072] matrix y starting at column off, narrowed: at the
    extended reals its entry (p, c) is y[p, off + c]. -/
theorem slice_truncf_apply (off : Nat) (hoff : off + 1024 ≤ 3072) (h : S1024x3072.Slices ![0, off] S1024x1024)
    (y : FVec Ideal S1024x3072 .f32) (p c : Fin 1024) :
    (truncf .bf16 (extractStridedSlice S1024x1024 ![0, off] y h) bitsLt_bf16_f32 : FVec Ideal S1024x1024 .bf16) (ix2 p c)
      = y (ix2 p (⟨off + c.val, by omega⟩ : Fin 3072)) := by
  rw [truncf_apply]
  refine extractStridedSlice_apply ![0, off] y h (ix2 p c) (ix2 p (⟨off + c.val, by omega⟩ : Fin 3072)) (fun a => ?_)
  match a with
  | ⟨0, _⟩ => show p.val = 0 + p.val; omega
  | ⟨1, _⟩ => show off + c.val = off + c.val; rfl

/-- The first stored value is columns [0, 1024) of the fused projection: entry (p, c) is row p of x against column c
    of w, plus b[c]. -/
theorem qkv_payload_q_apply (x : Vec Ideal S1024x1024 .f32) (w : Vec Ideal S1024x3072 .bf16) (b : Vec Ideal S3072 .f32)
    (p c : Fin 1024) :
    k0_pay2 (F := Ideal) x w b (ix2 p c)
      = Cert.AttnSpec.proj (fun d : Fin 1024 => x (ix2 p d))
          (fun d : Fin 1024 => w (ix2 d (⟨c.val, by omega⟩ : Fin 3072))) (b (ix1 (⟨c.val, by omega⟩ : Fin 3072))) := by
  have hc : (⟨0 + c.val, by omega⟩ : Fin 3072) = ⟨c.val, by omega⟩ := Fin.ext (Nat.zero_add _)
  have h := (slice_truncf_apply 0 (by omega) slices_S1024x3072_o0_0_S1024x1024 (k0_pay1 (F := Ideal) x w b) p c).trans
    (qkv_pay1_apply x w b p _)
  rw [hc] at h
  exact h

/-- The second stored value is columns [1024, 2048): entry (p, c) is row p of x against column 1024 + c of w, plus
    b[1024 + c]. -/
theorem qkv_payload_k_apply (x : Vec Ideal S1024x1024 .f32) (w : Vec Ideal S1024x3072 .bf16) (b : Vec Ideal S3072 .f32)
    (p c : Fin 1024) :
    k0_pay3 (F := Ideal) x w b (ix2 p c)
      = Cert.AttnSpec.proj (fun d : Fin 1024 => x (ix2 p d))
          (fun d : Fin 1024 => w (ix2 d (⟨1024 + c.val, by omega⟩ : Fin 3072)))
          (b (ix1 (⟨1024 + c.val, by omega⟩ : Fin 3072))) :=
  (slice_truncf_apply 1024 (by omega) slices_S1024x3072_o0_1024_S1024x1024 (k0_pay1 (F := Ideal) x w b) p c).trans
    (qkv_pay1_apply x w b p _)

/-- The third stored value is columns [2048, 3072): entry (p, c) is row p of x against column 2048 + c of w, plus
    b[2048 + c]. -/
theorem qkv_payload_v_apply (x : Vec Ideal S1024x1024 .f32) (w : Vec Ideal S1024x3072 .bf16) (b : Vec Ideal S3072 .f32)
    (p c : Fin 1024) :
    k0_pay4 (F := Ideal) x w b (ix2 p c)
      = Cert.AttnSpec.proj (fun d : Fin 1024 => x (ix2 p d))
          (fun d : Fin 1024 => w (ix2 d (⟨2048 + c.val, by omega⟩ : Fin 3072)))
          (b (ix1 (⟨2048 + c.val, by omega⟩ : Fin 3072))) :=
  (slice_truncf_apply 2048 (by omega) slices_S1024x3072_o0_2048_S1024x1024 (k0_pay1 (F := Ideal) x w b) p c).trans
    (qkv_pay1_apply x w b p _)

end Cert.KernelIdeal.QkvBody

end
-- ==== Proof.QkvArray.lean ====
/-
  The projection region's three output arrays after the region, each as ONE function of the arrays the region found: the
  entry (r, e) of the query / key / value array is the projection of row r of the flattened activations against column
  e / 1024 + e / 2048 + e of the concatenated weight, plus that entry of the concatenated bias. Grid point t writes rows
  [1024 t, 1024 t + 1024) of each output, computed from the same rows of the activations and the whole weight and bias, so
  the sixteen blocks tile the arrays and each is the restriction of that one function.
-/
import proofs.«151214_j36215164240477_2_alg».proof.Proof.QkvRegion
import proofs.«151214_j36215164240477_2_alg».proof.Proof.QkvBody
import proofs.«151214_j36215164240477_2_alg».proof.Proof.AttnSpec
import Idealize.ShloMosaic.Lib.Pipeline.Value
import Idealize.ShloMosaic.Lib.ValueIdx

set_option maxRecDepth 16384

noncomputable section

namespace Cert.KernelIdeal.QkvArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The three column thirds of the concatenated weight. -/
def colQ (c : Fin 1024) : Fin 3072 := ⟨c.val, by omega⟩
def colK (c : Fin 1024) : Fin 3072 := ⟨1024 + c.val, by omega⟩
def colV (c : Fin 1024) : Fin 3072 := ⟨2048 + c.val, by omega⟩

/-- The projection of the flattened activations Xf against the columns col picks of the weight Wf, plus the bias Bf. -/
def projOut (col : Fin 1024 → Fin 3072) (Xf : S16384x1024.Idx → EReal) (Wf : S1024x3072.Idx → EReal) (Bf : S3072.Idx → EReal) :
    S16384x1024.Idx → EReal := fun i =>
  Cert.AttnSpec.proj (fun d : Fin 1024 => Xf (ix2 (⟨(i 0).val, idx2_lt0 i⟩ : Fin 16384) d))
    (fun d : Fin 1024 => Wf (ix2 d (col ⟨(i 1).val, idx2_lt1 i⟩)))
    (Bf (ix1 (col ⟨(i 1).val, idx2_lt1 i⟩)))

theorem projOut_apply (col : Fin 1024 → Fin 3072) (Xf : S16384x1024.Idx → EReal) (Wf : S1024x3072.Idx → EReal) (Bf : S3072.Idx → EReal)
    (r : Fin 16384) (e : Fin 1024) :
    projOut col Xf Wf Bf (ix2 r e) = Cert.AttnSpec.proj (fun d : Fin 1024 => Xf (ix2 r d)) (fun d : Fin 1024 => Wf (ix2 d (col e))) (Bf (ix1 (col e))) := rfl

/-- The index maps over the grid: the activations and the outputs move down the rows with the point, the weight and the
    bias stay. -/
theorem qkv_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- One stored entry, over variables: a body whose stored value at (p, c) is the projection of its blocks, run on blocks that
    are rows r0 + p of Xf and the whole of Wf and Bf, stores the entry (r0 + p, c) of the projection of the arrays. -/
theorem point_eq (col : Fin 1024 → Fin 3072)
    (pay : Vec Ideal S1024x1024 .f32 → Vec Ideal S1024x3072 .bf16 → Vec Ideal S3072 .f32 → FVec Ideal S1024x1024 .bf16)
    (hpay : ∀ (x : Vec Ideal S1024x1024 .f32) (w : Vec Ideal S1024x3072 .bf16) (b : Vec Ideal S3072 .f32) (p c : Fin 1024),
      pay x w b (ix2 p c) = Cert.AttnSpec.proj (fun d : Fin 1024 => x (ix2 p d)) (fun d : Fin 1024 => w (ix2 d (col c))) (b (ix1 (col c))))
    (x : Vec Ideal S1024x1024 .f32) (w : Vec Ideal S1024x3072 .bf16) (b : Vec Ideal S3072 .f32)
    (Xf : S16384x1024.Idx → EReal) (Wf : S1024x3072.Idx → EReal) (Bf : S3072.Idx → EReal) (r0 : Nat) (hr0 : r0 + 1024 ≤ 16384)
    (hx : ∀ (p d : Fin 1024), x (ix2 p d) = Xf (ix2 (⟨r0 + p.val, by omega⟩ : Fin 16384) d))
    (hw : ∀ (d : Fin 1024) (j : Fin 3072), w (ix2 d j) = Wf (ix2 d j)) (hb : ∀ j : Fin 3072, b (ix1 j) = Bf (ix1 j))
    (p c : Fin 1024) :
    pay x w b (ix2 p c) = projOut col Xf Wf Bf (ix2 (⟨r0 + p.val, by omega⟩ : Fin 16384) c) := by
  rw [hpay, projOut_apply]
  have e1 : (fun d : Fin 1024 => x (ix2 p d)) = fun d : Fin 1024 => Xf (ix2 (⟨r0 + p.val, by omega⟩ : Fin 16384) d) := funext fun d => hx p d
  have e2 : (fun d : Fin 1024 => w (ix2 d (col c))) = fun d : Fin 1024 => Wf (ix2 d (col c)) := funext fun d => hw d _
  rw [e1, e2, hb]

/-! ## The q output (window 3) -/

/-- What grid point t writes back is block t of the projection of the arrays the region found. -/
theorem flushed_q (c : Dev nD) (t : Fin cfg0.N) :
    (qkvDat (F := Ideal) V c).flushed 3 t
      = ((cfg0.win 3).blk t).view.read (Elt Ideal) (projOut colQ (V c main_v7) (V c main_v5) (V c main_v6)) := by
  show (cfg0.win 3).cut (grid0.coords t) ((qkvDat V c).after 3 t) = _
  rw [qkvDat_after_q]
  unfold qkvStoredQ
  rw [View.canon_unit_zero zero2]
  simp only [View.ld_unit_zero (S := S1024x1024) zero2, View.ld_unit_zero (S := S1024x3072) zero2, View.ld_unit_zero (S := S3072) zero1]
  obtain ⟨e00, e01, e10, e11, e20, e30, e31, e40, e41, e50, e51⟩ := qkv_index_facts t
  have ht : t.val < 16 := by have := t.isLt; have hN : cfg0.N = 16 := N_0; omega
  funext j
  obtain ⟨p, q, rfl⟩ : ∃ (p : Fin 1024) (q : Fin 1024), j = ix2 p q := ⟨j 0, j 1, eq_ix2 j⟩
  refine (point_eq colQ _ QkvBody.qkv_payload_q_apply (qkvBlk V c 0 t) (qkvBlk V c 1 t) (qkvBlk V c 2 t)
    (V c main_v7) (V c main_v5) (V c main_v6) (1024 * t.val) (by omega) ?_ ?_ ?_ p q).trans ?_
  · intro p d
    show V c main_v7 (((cfg0.win 0).blk t).view.emb (ix2 p d)) = V c main_v7 (ix2 ⟨1024 * t.val + p.val, by omega⟩ d)
    refine congrArg _ (funext fun a => Fin.ext ?_)
    match a with
    | ⟨0, _⟩ => show win0_0.index t (0 : Fin 2) * 1024 + 1 * p.val = 1024 * t.val + p.val; omega
    | ⟨1, _⟩ => show win0_0.index t (1 : Fin 2) * 1024 + 1 * d.val = d.val; omega
  · intro d j
    show V c main_v5 (((cfg0.win 1).blk t).view.emb (ix2 d j)) = V c main_v5 (ix2 d j)
    refine congrArg _ (funext fun a => Fin.ext ?_)
    match a with
    | ⟨0, _⟩ => show win0_1.index t (0 : Fin 2) * 1024 + 1 * d.val = d.val; omega
    | ⟨1, _⟩ => show win0_1.index t (1 : Fin 2) * 3072 + 1 * j.val = j.val; omega
  · intro j
    show V c main_v6 (((cfg0.win 2).blk t).view.emb (ix1 j)) = V c main_v6 (ix1 j)
    refine congrArg _ (funext fun a => Fin.ext ?_)
    match a with
    | ⟨0, _⟩ => show win0_2.index t (0 : Fin 1) * 3072 + 1 * j.val = j.val; omega
  · show _ = projOut colQ (V c main_v7) (V c main_v5) (V c main_v6) (((cfg0.win 3).blk t).view.emb (ix2 p q))
    refine congrArg _ (funext fun a => Fin.ext ?_)
    match a with
    | ⟨0, _⟩ => show 1024 * t.val + p.val = win0_3.index t (0 : Fin 2) * 1024 + 1 * p.val; omega
    | ⟨1, _⟩ => show q.val = win0_3.index t (1 : Fin 2) * 1024 + 1 * q.val; omega

/-- An index of the array is in point t's block iff each coordinate is in the block's range on its axis. -/
theorem mem_block_q (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8_0).slice (win0_3.rect t)).set ↔ _
  rw [View.set_slice_whole, Rect.mem_set_unit]
  exact Iff.rfl

/-- Row r lies in the block of point r / 1024. -/
theorem cover_q (i : S16384x1024.Idx) : ∃ t : Fin cfg0.N, (cfg0.win 3).flush t = true ∧ i ∈ ((cfg0.win 3).blk t).view.set := by
  have hi0 : (i 0).val < 16384 := idx2_lt0 i
  have hi1 : (i 1).val < 1024 := idx2_lt1 i
  have hN : cfg0.N = 16 := N_0
  let t : Fin cfg0.N := ⟨(i 0).val / 1024, by omega⟩
  have htv : t.val = (i 0).val / 1024 := rfl
  obtain ⟨e00, e01, e10, e11, e20, e30, e31, e40, e41, e50, e51⟩ := qkv_index_facts t
  refine ⟨t, flush0_3 t, ?_⟩
  rw [mem_block_q]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY after the region. -/
theorem array_q (c : Dev nD) :
    (qkvDat (F := Ideal) V c).arrAt 3 cfg0.N = projOut colQ (V c main_v7) (V c main_v5) (V c main_v6) :=
  (qkvDat (F := Ideal) V c).arrAt_eq_of_cover 3 (projOut colQ (V c main_v7) (V c main_v5) (V c main_v6))
    (fun t _ => flushed_q V c t) cover_q

/-! ## The k output (window 4) -/

/-- What grid point t writes back is block t of the projection of the arrays the region found. -/
theorem flushed_k (c : Dev nD) (t : Fin cfg0.N) :
    (qkvDat (F := Ideal) V c).flushed 4 t
      = ((cfg0.win 4).blk t).view.read (Elt Ideal) (projOut colK (V c main_v7) (V c main_v5) (V c main_v6)) := by
  show (cfg0.win 4).cut (grid0.coords t) ((qkvDat V c).after 4 t) = _
  rw [qkvDat_after_k]
  unfold qkvStoredK
  rw [View.canon_unit_zero zero2]
  simp only [View.ld_unit_zero (S := S1024x1024) zero2, View.ld_unit_zero (S := S1024x3072) zero2, View.ld_unit_zero (S := S3072) zero1]
  obtain ⟨e00, e01, e10, e11, e20, e30, e31, e40, e41, e50, e51⟩ := qkv_index_facts t
  have ht : t.val < 16 := by have := t.isLt; have hN : cfg0.N = 16 := N_0; omega
  funext j
  obtain ⟨p, q, rfl⟩ : ∃ (p : Fin 1024) (q : Fin 1024), j = ix2 p q := ⟨j 0, j 1, eq_ix2 j⟩
  refine (point_eq colK _ QkvBody.qkv_payload_k_apply (qkvBlk V c 0 t) (qkvBlk V c 1 t) (qkvBlk V c 2 t)
    (V c main_v7) (V c main_v5) (V c main_v6) (1024 * t.val) (by omega) ?_ ?_ ?_ p q).trans ?_
  · intro p d
    show V c main_v7 (((cfg0.win 0).blk t).view.emb (ix2 p d)) = V c main_v7 (ix2 ⟨1024 * t.val + p.val, by omega⟩ d)
    refine congrArg _ (funext fun a => Fin.ext ?_)
    match a with
    | ⟨0, _⟩ => show win0_0.index t (0 : Fin 2) * 1024 + 1 * p.val = 1024 * t.val + p.val; omega
    | ⟨1, _⟩ => show win0_0.index t (1 : Fin 2) * 1024 + 1 * d.val = d.val; omega
  · intro d j
    show V c main_v5 (((cfg0.win 1).blk t).view.emb (ix2 d j)) = V c main_v5 (ix2 d j)
    refine congrArg _ (funext fun a => Fin.ext ?_)
    match a with
    | ⟨0, _⟩ => show win0_1.index t (0 : Fin 2) * 1024 + 1 * d.val = d.val; omega
    | ⟨1, _⟩ => show win0_1.index t (1 : Fin 2) * 3072 + 1 * j.val = j.val; omega
  · intro j
    show V c main_v6 (((cfg0.win 2).blk t).view.emb (ix1 j)) = V c main_v6 (ix1 j)
    refine congrArg _ (funext fun a => Fin.ext ?_)
    match a with
    | ⟨0, _⟩ => show win0_2.index t (0 : Fin 1) * 3072 + 1 * j.val = j.val; omega
  · show _ = projOut colK (V c main_v7) (V c main_v5) (V c main_v6) (((cfg0.win 4).blk t).view.emb (ix2 p q))
    refine congrArg _ (funext fun a => Fin.ext ?_)
    match a with
    | ⟨0, _⟩ => show 1024 * t.val + p.val = win0_4.index t (0 : Fin 2) * 1024 + 1 * p.val; omega
    | ⟨1, _⟩ => show q.val = win0_4.index t (1 : Fin 2) * 1024 + 1 * q.val; omega

/-- An index of the array is in point t's block iff each coordinate is in the block's range on its axis. -/
theorem mem_block_k (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v8_1).slice (win0_4.rect t)).set ↔ _
  rw [View.set_slice_whole, Rect.mem_set_unit]
  exact Iff.rfl

/-- Row r lies in the block of point r / 1024. -/
theorem cover_k (i : S16384x1024.Idx) : ∃ t : Fin cfg0.N, (cfg0.win 4).flush t = true ∧ i ∈ ((cfg0.win 4).blk t).view.set := by
  have hi0 : (i 0).val < 16384 := idx2_lt0 i
  have hi1 : (i 1).val < 1024 := idx2_lt1 i
  have hN : cfg0.N = 16 := N_0
  let t : Fin cfg0.N := ⟨(i 0).val / 1024, by omega⟩
  have htv : t.val = (i 0).val / 1024 := rfl
  obtain ⟨e00, e01, e10, e11, e20, e30, e31, e40, e41, e50, e51⟩ := qkv_index_facts t
  refine ⟨t, flush0_4 t, ?_⟩
  rw [mem_block_k]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the region. -/
theorem array_k (c : Dev nD) :
    (qkvDat (F := Ideal) V c).arrAt 4 cfg0.N = projOut colK (V c main_v7) (V c main_v5) (V c main_v6) :=
  (qkvDat (F := Ideal) V c).arrAt_eq_of_cover 4 (projOut colK (V c main_v7) (V c main_v5) (V c main_v6))
    (fun t _ => flushed_k V c t) cover_k

/-! ## The v output (window 5) -/

/-- What grid point t writes back is block t of the projection of the arrays the region found. -/
theorem flushed_v (c : Dev nD) (t : Fin cfg0.N) :
    (qkvDat (F := Ideal) V c).flushed 5 t
      = ((cfg0.win 5).blk t).view.read (Elt Ideal) (projOut colV (V c main_v7) (V c main_v5) (V c main_v6)) := by
  show (cfg0.win 5).cut (grid0.coords t) ((qkvDat V c).after 5 t) = _
  rw [qkvDat_after_v]
  unfold qkvStoredV
  rw [View.canon_unit_zero zero2]
  simp only [View.ld_unit_zero (S := S1024x1024) zero2, View.ld_unit_zero (S := S1024x3072) zero2, View.ld_unit_zero (S := S3072) zero1]
  obtain ⟨e00, e01, e10, e11, e20, e30, e31, e40, e41, e50, e51⟩ := qkv_index_facts t
  have ht : t.val < 16 := by have := t.isLt; have hN : cfg0.N = 16 := N_0; omega
  funext j
  obtain ⟨p, q, rfl⟩ : ∃ (p : Fin 1024) (q : Fin 1024), j = ix2 p q := ⟨j 0, j 1, eq_ix2 j⟩
  refine (point_eq colV _ QkvBody.qkv_payload_v_apply (qkvBlk V c 0 t) (qkvBlk V c 1 t) (qkvBlk V c 2 t)
    (V c main_v7) (V c main_v5) (V c main_v6) (1024 * t.val) (by omega) ?_ ?_ ?_ p q).trans ?_
  · intro p d
    show V c main_v7 (((cfg0.win 0).blk t).view.emb (ix2 p d)) = V c main_v7 (ix2 ⟨1024 * t.val + p.val, by omega⟩ d)
    refine congrArg _ (funext fun a => Fin.ext ?_)
    match a with
    | ⟨0, _⟩ => show win0_0.index t (0 : Fin 2) * 1024 + 1 * p.val = 1024 * t.val + p.val; omega
    | ⟨1, _⟩ => show win0_0.index t (1 : Fin 2) * 1024 + 1 * d.val = d.val; omega
  · intro d j
    show V c main_v5 (((cfg0.win 1).blk t).view.emb (ix2 d j)) = V c main_v5 (ix2 d j)
    refine congrArg _ (funext fun a => Fin.ext ?_)
    match a with
    | ⟨0, _⟩ => show win0_1.index t (0 : Fin 2) * 1024 + 1 * d.val = d.val; omega
    | ⟨1, _⟩ => show win0_1.index t (1 : Fin 2) * 3072 + 1 * j.val = j.val; omega
  · intro j
    show V c main_v6 (((cfg0.win 2).blk t).view.emb (ix1 j)) = V c main_v6 (ix1 j)
    refine congrArg _ (funext fun a => Fin.ext ?_)
    match a with
    | ⟨0, _⟩ => show win0_2.index t (0 : Fin 1) * 3072 + 1 * j.val = j.val; omega
  · show _ = projOut colV (V c main_v7) (V c main_v5) (V c main_v6) (((cfg0.win 5).blk t).view.emb (ix2 p q))
    refine congrArg _ (funext fun a => Fin.ext ?_)
    match a with
    | ⟨0, _⟩ => show 1024 * t.val + p.val = win0_5.index t (0 : Fin 2) * 1024 + 1 * p.val; omega
    | ⟨1, _⟩ => show q.val = win0_5.index t (1 : Fin 2) * 1024 + 1 * q.val; omega

/-- An index of the array is in point t's block iff each coordinate is in the block's range on its axis. -/
theorem mem_block_v (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8_2).slice (win0_5.rect t)).set ↔ _
  rw [View.set_slice_whole, Rect.mem_set_unit]
  exact Iff.rfl

/-- Row r lies in the block of point r / 1024. -/
theorem cover_v (i : S16384x1024.Idx) : ∃ t : Fin cfg0.N, (cfg0.win 5).flush t = true ∧ i ∈ ((cfg0.win 5).blk t).view.set := by
  have hi0 : (i 0).val < 16384 := idx2_lt0 i
  have hi1 : (i 1).val < 1024 := idx2_lt1 i
  have hN : cfg0.N = 16 := N_0
  let t : Fin cfg0.N := ⟨(i 0).val / 1024, by omega⟩
  have htv : t.val = (i 0).val / 1024 := rfl
  obtain ⟨e00, e01, e10, e11, e20, e30, e31, e40, e41, e50, e51⟩ := qkv_index_facts t
  refine ⟨t, flush0_5 t, ?_⟩
  rw [mem_block_v]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE ARRAY after the region. -/
theorem array_v (c : Dev nD) :
    (qkvDat (F := Ideal) V c).arrAt 5 cfg0.N = projOut colV (V c main_v7) (V c main_v5) (V c main_v6) :=
  (qkvDat (F := Ideal) V c).arrAt_eq_of_cover 5 (projOut colV (V c main_v7) (V c main_v5) (V c main_v6))
    (fun t _ => flushed_v V c t) cover_v

end Cert.KernelIdeal.QkvArray

end
-- ==== Proof.ExitArrays.lean ====
/-
  The projection region's outputs as the run finds them after the region: the entry (r, e) of the query, key and value
  arrays at the region's exit is the projection of row r of the flattened activations against a column of the concatenated
  weight, plus the bias entry, all read off the region's entry contents.
-/
import proofs.«151214_j36215164240477_2_alg».proof.Proof.MainRun
import proofs.«151214_j36215164240477_2_alg».proof.Proof.QkvArray

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Frame Cert.KernelIdeal.QkvArray

variable (m : (ℓ : Loc nD τ sig) → Buf (Elt Ideal) ℓ) (ρ : Dev nD → PrngReg)

theorem exit_q (c : Dev nD) (r : Fin 16384) (e : Fin 1024) :
    (B2 m ρ c (Proc.devRef .tc main_v8_0) : S16384x1024.Idx → EReal) (ix2 r e)
      = Cert.AttnSpec.proj (fun d : Fin 1024 => (B1 m ρ c (Proc.devRef .tc main_v7) : S16384x1024.Idx → EReal) (ix2 r d))
          (fun d : Fin 1024 => (B1 m ρ c (Proc.devRef .tc main_v5) : S1024x3072.Idx → EReal) (ix2 d (colQ e)))
          ((B1 m ρ c (Proc.devRef .tc main_v6) : S3072.Idx → EReal) (ix1 (colQ e))) := by
  have h := (B2_arr m ρ c 3).trans (array_q (E1 m ρ) c)
  exact congrFun h (ix2 r e)

theorem exit_k (c : Dev nD) (r : Fin 16384) (e : Fin 1024) :
    (B2 m ρ c (Proc.devRef .tc main_v8_1) : S16384x1024.Idx → EReal) (ix2 r e)
      = Cert.AttnSpec.proj (fun d : Fin 1024 => (B1 m ρ c (Proc.devRef .tc main_v7) : S16384x1024.Idx → EReal) (ix2 r d))
          (fun d : Fin 1024 => (B1 m ρ c (Proc.devRef .tc main_v5) : S1024x3072.Idx → EReal) (ix2 d (colK e)))
          ((B1 m ρ c (Proc.devRef .tc main_v6) : S3072.Idx → EReal) (ix1 (colK e))) := by
  have h := (B2_arr m ρ c 4).trans (array_k (E1 m ρ) c)
  exact congrFun h (ix2 r e)

theorem exit_v (c : Dev nD) (r : Fin 16384) (e : Fin 1024) :
    (B2 m ρ c (Proc.devRef .tc main_v8_2) : S16384x1024.Idx → EReal) (ix2 r e)
      = Cert.AttnSpec.proj (fun d : Fin 1024 => (B1 m ρ c (Proc.devRef .tc main_v7) : S16384x1024.Idx → EReal) (ix2 r d))
          (fun d : Fin 1024 => (B1 m ρ c (Proc.devRef .tc main_v5) : S1024x3072.Idx → EReal) (ix2 d (colV e)))
          ((B1 m ρ c (Proc.devRef .tc main_v6) : S3072.Idx → EReal) (ix1 (colV e))) := by
  have h := (B2_arr m ρ c 5).trans (array_v (E1 m ρ) c)
  exact congrFun h (ix2 r e)

end Cert.KernelIdeal.Bridge

end
-- ==== Proof.HostReshape.lean ====
/-
  The host's reshapes around the two kernels, read at an index, on the extended reals.

  Before the projection kernel the activations [4, 4096, 1024] are flattened to [16384, 1024]: row 4096 * b + n of the
  flat array is row n of batch b. After it each of the three projections [16384, 1024] is folded back to
  [4, 4096, 1024]: entry (b, n, e) is entry (4096 * b + n, e) of the flat array. Both hold whatever the buffers held
  before the stretch of host operations: a reshape keeps the row-major position of every entry, and no other
  operation of the stretch writes the buffer read.
-/
import proofs.«151214_j36215164240477_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal

noncomputable section

namespace Cert.KernelIdeal.HostReshape

open Idealize.ShloMosaic Idealize.ShloMosaic.ValueIdx Idealize.ShloMosaic.StableHlo Cert.KernelIdeal Cert.KernelIdeal.Gen

/-- After the first stretch of host operations the flat activations hold, at row 4096 * b + n, row n of batch b of the
    activations the stretch started from. -/
theorem v7_apply (W : Valuation τ sig (Elt Ideal)) (b : Fin 4) (n : Fin 4096) (d : Fin 1024) :
    (StableHlo.after (hostOps0 (F := Ideal)) W (Proc.devRef .tc main_v7) : S16384x1024.Idx → EReal) (ix2 (⟨4096 * b.val + n.val, by omega⟩ : Fin 16384) d)
      = (W (Proc.devRef .tc main_arg0) : S4x4096x1024.Idx → EReal) (ix3 b n d) := by
  dsimp only [hostOps0]
  after_results
  show shapeCast S16384x1024 (W (Proc.devRef .tc main_arg0) : S4x4096x1024.Idx → EReal) shapeCasts_S4x4096x1024_S16384x1024 (ix2 (⟨4096 * b.val + n.val, by omega⟩ : Fin 16384) d) = _
  refine shapeCast_apply _ _ _ (ix3 b n d) ?_
  rw [Shape.rowMajor_val_three, Shape.rowMajor_val_two]
  show (b.val * 4096 + n.val) * 1024 + d.val = (4096 * b.val + n.val) * 1024 + d.val
  omega

/-- After the second stretch the folded first projection holds, at (b, n, e), entry (4096 * b + n, e) of the flat first projection the stretch started from. -/
theorem v9_apply (W : Valuation τ sig (Elt Ideal)) (b : Fin 4) (n : Fin 4096) (e : Fin 1024) :
    (StableHlo.after (hostOps1 (F := Ideal)) W (Proc.devRef .tc main_v9) : S4x4096x1024.Idx → EReal) (ix3 b n e)
      = (W (Proc.devRef .tc main_v8_0) : S16384x1024.Idx → EReal) (ix2 (⟨4096 * b.val + n.val, by omega⟩ : Fin 16384) e) := by
  dsimp only [hostOps1]
  after_results
  show shapeCast S4x4096x1024 (W (Proc.devRef .tc main_v8_0) : S16384x1024.Idx → EReal) shapeCasts_S16384x1024_S4x4096x1024 (ix3 b n e) = _
  refine shapeCast_apply _ _ _ (ix2 (⟨4096 * b.val + n.val, by omega⟩ : Fin 16384) e) ?_
  rw [Shape.rowMajor_val_two, Shape.rowMajor_val_three]
  show (4096 * b.val + n.val) * 1024 + e.val = (b.val * 4096 + n.val) * 1024 + e.val
  omega

/-- The folded second projection likewise, from the flat second projection. -/
theorem v10_apply (W : Valuation τ sig (Elt Ideal)) (b : Fin 4) (n : Fin 4096) (e : Fin 1024) :
    (StableHlo.after (hostOps1 (F := Ideal)) W (Proc.devRef .tc main_v10) : S4x4096x1024.Idx → EReal) (ix3 b n e)
      = (W (Proc.devRef .tc main_v8_1) : S16384x1024.Idx → EReal) (ix2 (⟨4096 * b.val + n.val, by omega⟩ : Fin 16384) e) := by
  dsimp only [hostOps1]
  after_results
  show shapeCast S4x4096x1024 (W (Proc.devRef .tc main_v8_1) : S16384x1024.Idx → EReal) shapeCasts_S16384x1024_S4x4096x1024 (ix3 b n e) = _
  refine shapeCast_apply _ _ _ (ix2 (⟨4096 * b.val + n.val, by omega⟩ : Fin 16384) e) ?_
  rw [Shape.rowMajor_val_two, Shape.rowMajor_val_three]
  show (4096 * b.val + n.val) * 1024 + e.val = (b.val * 4096 + n.val) * 1024 + e.val
  omega

/-- The folded third projection likewise, from the flat third projection. -/
theorem v11_apply (W : Valuation τ sig (Elt Ideal)) (b : Fin 4) (n : Fin 4096) (e : Fin 1024) :
    (StableHlo.after (hostOps1 (F := Ideal)) W (Proc.devRef .tc main_v11) : S4x4096x1024.Idx → EReal) (ix3 b n e)
      = (W (Proc.devRef .tc main_v8_2) : S16384x1024.Idx → EReal) (ix2 (⟨4096 * b.val + n.val, by omega⟩ : Fin 16384) e) := by
  dsimp only [hostOps1]
  after_results
  show shapeCast S4x4096x1024 (W (Proc.devRef .tc main_v8_2) : S16384x1024.Idx → EReal) shapeCasts_S16384x1024_S4x4096x1024 (ix3 b n e) = _
  refine shapeCast_apply _ _ _ (ix2 (⟨4096 * b.val + n.val, by omega⟩ : Fin 16384) e) ?_
  rw [Shape.rowMajor_val_two, Shape.rowMajor_val_three]
  show (4096 * b.val + n.val) * 1024 + e.val = (b.val * 4096 + n.val) * 1024 + e.val
  omega

end Cert.KernelIdeal.HostReshape

end
-- ==== Proof.HostStages.lean ====
/-
  What the kernel program's first host stretch leaves in the two arrays it assembles for the projection, read entry by entry,
  at the ideal values and from any starting contents.  The weight array is the query weights times the scale word, the key
  weights and the value weights laid side by side along the columns (then a format change, the identity on the extended
  reals); the bias array is the query bias times the scale word, the key bias and the value bias laid end to end.  So
  column (or entry) c of the first third reads the query array at c times the scale, column 1024 + c reads the key array at
  c, and column 2048 + c reads the value array at c.  Each argument array enters as a function to the extended reals with
  an equation saying it is the starting contents of its buffer, so that the products are products of extended reals.
-/
import proofs.«151214_j36215164240477_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal

noncomputable section

namespace Cert.KernelIdeal.HostStages

open Idealize.ShloMosaic Idealize.ShloMosaic.ValueIdx Idealize.ShloMosaic.StableHlo
open Cert.KernelIdeal Cert.KernelIdeal.Gen

/-- Rewrites each host operation's result at its own buffer to its function of the operands' contents, and at any other
    buffer to the contents that were there, until neither applies. -/
local macro "host_results" : tactic =>
  `(tactic| repeat (first
      | rw [nullary_result] | rw [unary_result] | rw [binary_result] | rw [reshape_result] | rw [nary_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-! ### The weights: the scaled query weights, the key weights and the value weights laid side by side -/

/-- The first 1024 columns of the concatenated weights are the query weights times the scale word. -/
theorem weight_q (W : Valuation τ sig (Elt Ideal)) {a1 : S1024x1024.Idx → EReal} (h1 : W (Proc.devRef .tc main_arg1) = a1)
    (d c : Fin 1024) :
    (StableHlo.after (hostOps0 (F := Ideal)) W (Proc.devRef .tc main_v5) : S1024x3072.Idx → EReal)
        (ix2 d (⟨c.val, by omega⟩ : Fin 3072))
      = a1 (ix2 d c) * Ideal.ofBits .f32 0x3D000000#32 := by
  dsimp only [hostOps0]
  simp only [after_cons, after_nil]
  rw [reshape_result_ne]; rotate_left; decide
  rw [nary_result_ne]; rotate_left; decide
  rw [unary_result, nary_result]
  dsimp only
  rw [truncf_apply]
  refine (concatenate_apply_piece (1 : Fin S1024x3072.rank) _ _ (ix2 d (⟨c.val, by omega⟩ : Fin 3072)) 0
    (by show 0 < 3; omega) S1024x1024 _ rfl rfl 0 rfl (ix2 d c)
    (fun b hb => by match b with | ⟨0, _⟩ => rfl | ⟨1, _⟩ => exact absurd rfl hb)
    (Nat.zero_add _)).trans ?_
  dsimp only [Matrix.cons_val]
  host_results
  subst h1
  rfl

/-- The next 1024 columns are the key weights. -/
theorem weight_k (W : Valuation τ sig (Elt Ideal)) {a2 : S1024x1024.Idx → EReal} (h2 : W (Proc.devRef .tc main_arg2) = a2)
    (d c : Fin 1024) :
    (StableHlo.after (hostOps0 (F := Ideal)) W (Proc.devRef .tc main_v5) : S1024x3072.Idx → EReal)
        (ix2 d (⟨1024 + c.val, by omega⟩ : Fin 3072))
      = a2 (ix2 d c) := by
  dsimp only [hostOps0]
  simp only [after_cons, after_nil]
  rw [reshape_result_ne]; rotate_left; decide
  rw [nary_result_ne]; rotate_left; decide
  rw [unary_result, nary_result]
  dsimp only
  rw [truncf_apply]
  refine (concatenate_apply_piece (1 : Fin S1024x3072.rank) _ _ (ix2 d (⟨1024 + c.val, by omega⟩ : Fin 3072)) 1
    (by show 1 < 3; omega) S1024x1024 _ rfl rfl 1024 rfl (ix2 d c)
    (fun b hb => by match b with | ⟨0, _⟩ => rfl | ⟨1, _⟩ => exact absurd rfl hb)
    rfl).trans ?_
  dsimp only [Matrix.cons_val]
  host_results
  subst h2
  rfl

/-- The last 1024 columns are the value weights. -/
theorem weight_v (W : Valuation τ sig (Elt Ideal)) {a3 : S1024x1024.Idx → EReal} (h3 : W (Proc.devRef .tc main_arg3) = a3)
    (d c : Fin 1024) :
    (StableHlo.after (hostOps0 (F := Ideal)) W (Proc.devRef .tc main_v5) : S1024x3072.Idx → EReal)
        (ix2 d (⟨2048 + c.val, by omega⟩ : Fin 3072))
      = a3 (ix2 d c) := by
  dsimp only [hostOps0]
  simp only [after_cons, after_nil]
  rw [reshape_result_ne]; rotate_left; decide
  rw [nary_result_ne]; rotate_left; decide
  rw [unary_result, nary_result]
  dsimp only
  rw [truncf_apply]
  refine (concatenate_apply_piece (1 : Fin S1024x3072.rank) _ _ (ix2 d (⟨2048 + c.val, by omega⟩ : Fin 3072)) 2
    (by show 2 < 3; omega) S1024x1024 _ rfl rfl 2048 rfl (ix2 d c)
    (fun b hb => by match b with | ⟨0, _⟩ => rfl | ⟨1, _⟩ => exact absurd rfl hb)
    rfl).trans ?_
  dsimp only [Matrix.cons_val]
  host_results
  subst h3
  rfl

/-! ### The bias: the scaled query bias, the key bias and the value bias laid end to end -/

/-- The first 1024 entries of the concatenated bias are the query bias times the scale word. -/
theorem bias_q (W : Valuation τ sig (Elt Ideal)) {a4 : S1024.Idx → EReal} (h4 : W (Proc.devRef .tc main_arg4) = a4)
    (c : Fin 1024) :
    (StableHlo.after (hostOps0 (F := Ideal)) W (Proc.devRef .tc main_v6) : S3072.Idx → EReal)
        (ix1 (⟨c.val, by omega⟩ : Fin 3072))
      = a4 (ix1 c) * Ideal.ofBits .f32 0x3D000000#32 := by
  dsimp only [hostOps0]
  simp only [after_cons, after_nil]
  rw [reshape_result_ne]; rotate_left; decide
  rw [nary_result]
  refine (concatenate_apply_piece (0 : Fin S3072.rank) _ _ (ix1 (⟨c.val, by omega⟩ : Fin 3072)) 0
    (by show 0 < 3; omega) S1024 _ rfl rfl 0 rfl (ix1 c)
    (fun b hb => absurd (Fin.ext (by have h := b.isLt; change b.val < 1 at h; show b.val = 0; omega)) hb)
    (Nat.zero_add _)).trans ?_
  dsimp only [Matrix.cons_val]
  host_results
  subst h4
  rfl

/-- The next 1024 entries are the key bias. -/
theorem bias_k (W : Valuation τ sig (Elt Ideal)) {a5 : S1024.Idx → EReal} (h5 : W (Proc.devRef .tc main_arg5) = a5)
    (c : Fin 1024) :
    (StableHlo.after (hostOps0 (F := Ideal)) W (Proc.devRef .tc main_v6) : S3072.Idx → EReal)
        (ix1 (⟨1024 + c.val, by omega⟩ : Fin 3072))
      = a5 (ix1 c) := by
  dsimp only [hostOps0]
  simp only [after_cons, after_nil]
  rw [reshape_result_ne]; rotate_left; decide
  rw [nary_result]
  refine (concatenate_apply_piece (0 : Fin S3072.rank) _ _ (ix1 (⟨1024 + c.val, by omega⟩ : Fin 3072)) 1
    (by show 1 < 3; omega) S1024 _ rfl rfl 1024 rfl (ix1 c)
    (fun b hb => absurd (Fin.ext (by have h := b.isLt; change b.val < 1 at h; show b.val = 0; omega)) hb)
    rfl).trans ?_
  dsimp only [Matrix.cons_val]
  host_results
  subst h5
  rfl

/-- The last 1024 entries are the value bias. -/
theorem bias_v (W : Valuation τ sig (Elt Ideal)) {a6 : S1024.Idx → EReal} (h6 : W (Proc.devRef .tc main_arg6) = a6)
    (c : Fin 1024) :
    (StableHlo.after (hostOps0 (F := Ideal)) W (Proc.devRef .tc main_v6) : S3072.Idx → EReal)
        (ix1 (⟨2048 + c.val, by omega⟩ : Fin 3072))
      = a6 (ix1 c) := by
  dsimp only [hostOps0]
  simp only [after_cons, after_nil]
  rw [reshape_result_ne]; rotate_left; decide
  rw [nary_result]
  refine (concatenate_apply_piece (0 : Fin S3072.rank) _ _ (ix1 (⟨2048 + c.val, by omega⟩ : Fin 3072)) 2
    (by show 2 < 3; omega) S1024 _ rfl rfl 2048 rfl (ix1 c)
    (fun b hb => absurd (Fin.ext (by have h := b.isLt; change b.val < 1 at h; show b.val = 0; omega)) hb)
    rfl).trans ?_
  dsimp only [Matrix.cons_val]
  host_results
  subst h6
  rfl

end Cert.KernelIdeal.HostStages

end
-- ==== Proof.EntryArrays.lean ====
/-
  The query, key and value arrays as the attention region finds them, entry by entry, as functions of the argument arrays:
  each entry is the projection of an activation row against a weight column plus a bias entry; the query's weight and bias
  carry the scale word 1/32 the host multiplied in before the projection region.
-/
import proofs.«151214_j36215164240477_2_alg».proof.Proof.MainRun
import proofs.«151214_j36215164240477_2_alg».proof.Proof.ExitArrays
import proofs.«151214_j36215164240477_2_alg».proof.Proof.HostReshape
import proofs.«151214_j36215164240477_2_alg».proof.Proof.HostStages

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Frame Cert.KernelIdeal.QkvArray

variable (m : (ℓ : Loc nD τ sig) → Buf (Elt Ideal) ℓ) (ρ : Dev nD → PrngReg)

/-- An entry of the query array as the attention region finds it: the projection of activation row (b, n) against column e of
    the query weight, each weight and the bias entry multiplied by the scale word, plus the bias entry. -/
theorem entry_query (c : Dev nD) {X : S4x4096x1024.Idx → EReal} {Wt : S1024x1024.Idx → EReal} {bs : S1024.Idx → EReal}
    (hX : m ((c.tc : Thread nD τ).loc main_arg0) = X) (hW : m ((c.tc : Thread nD τ).loc main_arg1) = Wt)
    (hb : m ((c.tc : Thread nD τ).loc main_arg4) = bs) (b : Fin 4) (n : Fin 4096) (e : Fin 1024) :
    (B3 m ρ c (Proc.devRef .tc main_v9) : S4x4096x1024.Idx → EReal) (ix3 b n e)
      = Cert.AttnSpec.proj (fun d : Fin 1024 => X (ix3 b n d)) (fun d : Fin 1024 => Wt (ix2 d e) * Ideal.ofBits .f32 0x3D000000#32) (bs (ix1 e) * Ideal.ofBits .f32 0x3D000000#32) := by
  refine (HostReshape.v9_apply (B2 m ρ c) b n e).trans ?_
  refine (exit_q m ρ c _ e).trans ?_
  have e1 : (fun d : Fin 1024 => (B1 m ρ c (Proc.devRef .tc main_v7) : S16384x1024.Idx → EReal) (ix2 (⟨4096 * b.val + n.val, by omega⟩ : Fin 16384) d))
      = fun d : Fin 1024 => X (ix3 b n d) :=
    funext fun d => (HostReshape.v7_apply (B0 m ρ c) b n d).trans (congrFun hX _)
  have e2 : (fun d : Fin 1024 => (B1 m ρ c (Proc.devRef .tc main_v5) : S1024x3072.Idx → EReal) (ix2 d (colQ e)))
      = fun d : Fin 1024 => Wt (ix2 d e) * Ideal.ofBits .f32 0x3D000000#32 :=
    funext fun d => HostStages.weight_q (B0 m ρ c) hW d e
  have e3 : (B1 m ρ c (Proc.devRef .tc main_v6) : S3072.Idx → EReal) (ix1 (colQ e)) = bs (ix1 e) * Ideal.ofBits .f32 0x3D000000#32 :=
    HostStages.bias_q (B0 m ρ c) hb e
  rw [e1, e2, e3]

/-- An entry of the key array as the attention region finds it: the projection of activation row (b, n) against column e of
    the key weight, plus the bias entry. -/
theorem entry_key (c : Dev nD) {X : S4x4096x1024.Idx → EReal} {Wt : S1024x1024.Idx → EReal} {bs : S1024.Idx → EReal}
    (hX : m ((c.tc : Thread nD τ).loc main_arg0) = X) (hW : m ((c.tc : Thread nD τ).loc main_arg2) = Wt)
    (hb : m ((c.tc : Thread nD τ).loc main_arg5) = bs) (b : Fin 4) (n : Fin 4096) (e : Fin 1024) :
    (B3 m ρ c (Proc.devRef .tc main_v10) : S4x4096x1024.Idx → EReal) (ix3 b n e)
      = Cert.AttnSpec.proj (fun d : Fin 1024 => X (ix3 b n d)) (fun d : Fin 1024 => Wt (ix2 d e)) (bs (ix1 e)) := by
  refine (HostReshape.v10_apply (B2 m ρ c) b n e).trans ?_
  refine (exit_k m ρ c _ e).trans ?_
  have e1 : (fun d : Fin 1024 => (B1 m ρ c (Proc.devRef .tc main_v7) : S16384x1024.Idx → EReal) (ix2 (⟨4096 * b.val + n.val, by omega⟩ : Fin 16384) d))
      = fun d : Fin 1024 => X (ix3 b n d) :=
    funext fun d => (HostReshape.v7_apply (B0 m ρ c) b n d).trans (congrFun hX _)
  have e2 : (fun d : Fin 1024 => (B1 m ρ c (Proc.devRef .tc main_v5) : S1024x3072.Idx → EReal) (ix2 d (colK e)))
      = fun d : Fin 1024 => Wt (ix2 d e) :=
    funext fun d => HostStages.weight_k (B0 m ρ c) hW d e
  have e3 : (B1 m ρ c (Proc.devRef .tc main_v6) : S3072.Idx → EReal) (ix1 (colK e)) = bs (ix1 e) :=
    HostStages.bias_k (B0 m ρ c) hb e
  rw [e1, e2, e3]

/-- An entry of the value array as the attention region finds it: the projection of activation row (b, n) against column e of
    the value weight, plus the bias entry. -/
theorem entry_value (c : Dev nD) {X : S4x4096x1024.Idx → EReal} {Wt : S1024x1024.Idx → EReal} {bs : S1024.Idx → EReal}
    (hX : m ((c.tc : Thread nD τ).loc main_arg0) = X) (hW : m ((c.tc : Thread nD τ).loc main_arg3) = Wt)
    (hb : m ((c.tc : Thread nD τ).loc main_arg6) = bs) (b : Fin 4) (n : Fin 4096) (e : Fin 1024) :
    (B3 m ρ c (Proc.devRef .tc main_v11) : S4x4096x1024.Idx → EReal) (ix3 b n e)
      = Cert.AttnSpec.proj (fun d : Fin 1024 => X (ix3 b n d)) (fun d : Fin 1024 => Wt (ix2 d e)) (bs (ix1 e)) := by
  refine (HostReshape.v11_apply (B2 m ρ c) b n e).trans ?_
  refine (exit_v m ρ c _ e).trans ?_
  have e1 : (fun d : Fin 1024 => (B1 m ρ c (Proc.devRef .tc main_v7) : S16384x1024.Idx → EReal) (ix2 (⟨4096 * b.val + n.val, by omega⟩ : Fin 16384) d))
      = fun d : Fin 1024 => X (ix3 b n d) :=
    funext fun d => (HostReshape.v7_apply (B0 m ρ c) b n d).trans (congrFun hX _)
  have e2 : (fun d : Fin 1024 => (B1 m ρ c (Proc.devRef .tc main_v5) : S1024x3072.Idx → EReal) (ix2 d (colV e)))
      = fun d : Fin 1024 => Wt (ix2 d e) :=
    funext fun d => HostStages.weight_v (B0 m ρ c) hW d e
  have e3 : (B1 m ρ c (Proc.devRef .tc main_v6) : S3072.Idx → EReal) (ix1 (colV e)) = bs (ix1 e) :=
    HostStages.bias_v (B0 m ρ c) hb e
  rw [e1, e2, e3]

end Cert.KernelIdeal.Bridge

end
-- ==== Proof.AttnArray.lean ====
/-
  From blocks to the array for the attention region. Grid point t = 8 b + qi stores, into output rows
  [512 qi, 512 qi + 512) of batch b, the softmax of the scores of those query rows against all 4096 key rows of batch b,
  applied to the value rows of batch b. Row n of batch b lies in the block of the point 8 b + n / 512, and those blocks
  tile the output; so after the region the output array is, entry by entry, the attention of the three input arrays.
-/
import proofs.«151214_j36215164240477_2_alg».proof.Proof.AttnRegion
import proofs.«151214_j36215164240477_2_alg».proof.Proof.AttnSpec
import Idealize.ShloMosaic.Lib.Pipeline.Value
import Idealize.ShloMosaic.Lib.ValueIdx

noncomputable section

namespace Cert.KernelIdeal.AttnArray

open Cert.KernelIdeal Cert.KernelIdeal.Gen Idealize.ShloMosaic Idealize.ShloMosaic.TcCoe Idealize.SL.Sem
open Idealize.ShloMosaic.Pipeline (Dat)
open Idealize.ShloMosaic.ValueIdx Cert.AttnSpec

/-! ## The array the region leaves -/

/-- Attention of three arrays, entry by entry: the softmax of query row (b, n) against the key rows of batch b, applied
    to column e of the value rows of batch b. -/
def attnOut (Qf Kf Vf : S4x4096x1024.Idx → EReal) : S4x4096x1024.Idx → EReal := fun i =>
  softAttn
    (fun j : Fin 4096 => dotRow
      (fun d : Fin 1024 => Qf (ix3 (⟨(i 0).val, (i 0).isLt⟩ : Fin 4) (⟨(i 1).val, (i 1).isLt⟩ : Fin 4096) d))
      (fun d : Fin 1024 => Kf (ix3 (⟨(i 0).val, (i 0).isLt⟩ : Fin 4) j d)))
    (fun j : Fin 4096 => Vf (ix3 (⟨(i 0).val, (i 0).isLt⟩ : Fin 4) j (⟨(i 2).val, (i 2).isLt⟩ : Fin 1024)))

/-- The same at coordinates. -/
theorem attnOut_ix3 (Qf Kf Vf : S4x4096x1024.Idx → EReal) (b : Fin 4) (n : Fin 4096) (e : Fin 1024) :
    attnOut Qf Kf Vf (ix3 b n e)
      = softAttn (fun j : Fin 4096 => dotRow (fun d : Fin 1024 => Qf (ix3 b n d)) (fun d : Fin 1024 => Kf (ix3 b j d)))
          (fun j : Fin 4096 => Vf (ix3 b j e)) := rfl

/-! ## One stored entry -/

/-- The body's payload of three blocks that hold query rows of batch b and the key rows and the value rows of batch b is, at the block's row p that is the array's row n, and column e, the attention of the arrays at (b, n, e). -/
theorem attn_point
    (hpay : ∀ (q : Vec Ideal S1x512x1024 .bf16) (k v : Vec Ideal S1x4096x1024 .bf16) (p : Fin 512) (e : Fin 1024),
      k1_pay1 (F := Ideal) q k v (ix3 (0 : Fin 1) p e)
        = softAttn (fun j : Fin 4096 => dotRow (fun d : Fin 1024 => q (ix3 (0 : Fin 1) p d)) (fun d : Fin 1024 => k (ix3 (0 : Fin 1) j d)))
            (fun j : Fin 4096 => v (ix3 (0 : Fin 1) j e)))
    (Qf Kf Vf : S4x4096x1024.Idx → EReal) (q : Vec Ideal S1x512x1024 .bf16) (k v : Vec Ideal S1x4096x1024 .bf16)
    (b : Fin 4) (n : Fin 4096) (p : Fin 512) (e : Fin 1024)
    (hq : ∀ d : Fin 1024, q (ix3 (0 : Fin 1) p d) = Qf (ix3 b n d))
    (hk : ∀ (j : Fin 4096) (d : Fin 1024), k (ix3 (0 : Fin 1) j d) = Kf (ix3 b j d))
    (hv : ∀ (j : Fin 4096) (d : Fin 1024), v (ix3 (0 : Fin 1) j d) = Vf (ix3 b j d)) :
    k1_pay1 (F := Ideal) q k v (ix3 (0 : Fin 1) p e) = attnOut Qf Kf Vf (ix3 b n e) := by
  rw [hpay, attnOut_ix3]
  simp only [hq, hk, hv]

/-! ## The grid's block indices -/

theorem hz3 : (![0, 0, 0] : Fin 3 → Nat) = fun _ => 0 := funext fun a => by fin_cases a <;> rfl

/-- Point t is batch t / 8 and query block t % 8: the query and output windows sit at block (t / 8, t % 8, 0), the key
    and value windows at block (t / 8, 0, 0). -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-! ## What a point writes back -/

section
variable (V : (c : Dev nD) → (b : Ref sig .tc) → Buf (Elt Ideal) ((c : Thread nD τ).loc b))

/-- The query block at point t holds query rows [512 (t % 8), 512 (t % 8) + 512) of batch t / 8. -/
theorem blk_q (c : Dev nD) (t : Fin cfg1.N) (b : Fin 4) (hb : b.val = t.val / 8) (p : Fin 512) (n : Fin 4096)
    (hn : n.val = 512 * (t.val % 8) + p.val) (d : Fin 1024) :
    Frame.attnBlk (F := Ideal) V c 0 t (ix3 (0 : Fin 1) p d) = V c main_v9 (ix3 b n d) := by
  obtain ⟨e0, e1, e2, -⟩ := idx_facts t
  show V c main_v9 (((cfg1.win 0).blk t).view.emb (ix3 (0 : Fin 1) p d)) = V c main_v9 (ix3 b n d)
  refine congrArg (V c main_v9) (funext fun a => Fin.ext ?_)
  match a with
  | ⟨0, _⟩ => show win1_0.index t (0 : Fin 3) * 1 + 1 * 0 = b.val; omega
  | ⟨1, _⟩ => show win1_0.index t (1 : Fin 3) * 512 + 1 * p.val = n.val; omega
  | ⟨2, _⟩ => show win1_0.index t (2 : Fin 3) * 1024 + 1 * d.val = d.val; omega

/-- The key block at point t holds the key rows of batch t / 8. -/
theorem blk_k (c : Dev nD) (t : Fin cfg1.N) (b : Fin 4) (hb : b.val = t.val / 8) (j : Fin 4096) (d : Fin 1024) :
    Frame.attnBlk (F := Ideal) V c 1 t (ix3 (0 : Fin 1) j d) = V c main_v10 (ix3 b j d) := by
  obtain ⟨-, -, -, e0, e1, e2, -⟩ := idx_facts t
  show V c main_v10 (((cfg1.win 1).blk t).view.emb (ix3 (0 : Fin 1) j d)) = V c main_v10 (ix3 b j d)
  refine congrArg (V c main_v10) (funext fun a => Fin.ext ?_)
  match a with
  | ⟨0, _⟩ => show win1_1.index t (0 : Fin 3) * 1 + 1 * 0 = b.val; omega
  | ⟨1, _⟩ => show win1_1.index t (1 : Fin 3) * 4096 + 1 * j.val = j.val; omega
  | ⟨2, _⟩ => show win1_1.index t (2 : Fin 3) * 1024 + 1 * d.val = d.val; omega

/-- The value block at point t holds the value rows of batch t / 8. -/
theorem blk_v (c : Dev nD) (t : Fin cfg1.N) (b : Fin 4) (hb : b.val = t.val / 8) (j : Fin 4096) (d : Fin 1024) :
    Frame.attnBlk (F := Ideal) V c 2 t (ix3 (0 : Fin 1) j d) = V c main_v11 (ix3 b j d) := by
  obtain ⟨-, -, -, -, -, -, e0, e1, e2, -⟩ := idx_facts t
  show V c main_v11 (((cfg1.win 2).blk t).view.emb (ix3 (0 : Fin 1) j d)) = V c main_v11 (ix3 b j d)
  refine congrArg (V c main_v11) (funext fun a => Fin.ext ?_)
  match a with
  | ⟨0, _⟩ => show win1_2.index t (0 : Fin 3) * 1 + 1 * 0 = b.val; omega
  | ⟨1, _⟩ => show win1_2.index t (1 : Fin 3) * 4096 + 1 * j.val = j.val; omega
  | ⟨2, _⟩ => show win1_2.index t (2 : Fin 3) * 1024 + 1 * d.val = d.val; omega

/-- What point t writes back is its block of the attention of the three arrays as the region finds them. -/
theorem flushed_eq
    (hpay : ∀ (q : Vec Ideal S1x512x1024 .bf16) (k v : Vec Ideal S1x4096x1024 .bf16) (p : Fin 512) (e : Fin 1024),
      k1_pay1 (F := Ideal) q k v (ix3 (0 : Fin 1) p e)
        = softAttn (fun j : Fin 4096 => dotRow (fun d : Fin 1024 => q (ix3 (0 : Fin 1) p d)) (fun d : Fin 1024 => k (ix3 (0 : Fin 1) j d)))
            (fun j : Fin 4096 => v (ix3 (0 : Fin 1) j e)))
    (c : Dev nD) (t : Fin cfg1.N) :
    (Frame.attnDat (F := Ideal) V c).flushed 3 t
      = ((cfg1.win 3).blk t).view.read (Elt Ideal) (attnOut (V c main_v9) (V c main_v10) (V c main_v11)) := by
  show (cfg1.win 3).cut (grid1.coords t) ((Frame.attnDat (F := Ideal) V c).after 3 t) = _
  rw [Frame.attnDat_after_o]
  unfold Frame.attnStored
  rw [View.canon_unit_zero hz3]
  simp only [View.ld_unit_zero (S := S1x512x1024) hz3, View.ld_unit_zero (S := S1x4096x1024) hz3]
  funext j
  obtain ⟨-, -, -, -, -, -, -, -, -, e0, e1, e2⟩ := idx_facts t
  have hN : t.val < 32 := Nat.lt_of_lt_of_eq t.isLt N_1
  have hj0 : (j 0).val < 1 := (j 0).isLt
  have hj1 : (j 1).val < 512 := (j 1).isLt
  have hj2 : (j 2).val < 1024 := (j 2).isLt
  have hb : t.val / 8 < 4 := by omega
  have hn : 512 * (t.val % 8) + (j 1).val < 4096 := by omega
  have hx : (cfg1.win 3).xinj (grid1.coords t) j = ix3 (0 : Fin 1) (⟨(j 1).val, hj1⟩ : Fin 512) (⟨(j 2).val, hj2⟩ : Fin 1024) :=
    funext fun a => Fin.ext (by
      match a with
      | ⟨0, _⟩ => show (j 0).val = 0; omega
      | ⟨1, _⟩ => rfl
      | ⟨2, _⟩ => rfl)
  have hi : ((cfg1.win 3).blk t).view.emb j
      = ix3 (⟨t.val / 8, hb⟩ : Fin 4) (⟨512 * (t.val % 8) + (j 1).val, hn⟩ : Fin 4096) (⟨(j 2).val, hj2⟩ : Fin 1024) :=
    funext fun a => Fin.ext (by
      match a with
      | ⟨0, _⟩ => show win1_3.index t (0 : Fin 3) * 1 + 1 * (j 0).val = t.val / 8; omega
      | ⟨1, _⟩ => show win1_3.index t (1 : Fin 3) * 512 + 1 * (j 1).val = 512 * (t.val % 8) + (j 1).val; omega
      | ⟨2, _⟩ => show win1_3.index t (2 : Fin 3) * 1024 + 1 * (j 2).val = (j 2).val; omega)
  show k1_pay1 (F := Ideal) (Frame.attnBlk V c 0 t) (Frame.attnBlk V c 1 t) (Frame.attnBlk V c 2 t) ((cfg1.win 3).xinj (grid1.coords t) j)
    = attnOut (V c main_v9) (V c main_v10) (V c main_v11) (((cfg1.win 3).blk t).view.emb j)
  rw [hx, hi]
  exact attn_point hpay (V c main_v9) (V c main_v10) (V c main_v11) (Frame.attnBlk V c 0 t) (Frame.attnBlk V c 1 t)
    (Frame.attnBlk V c 2 t) ⟨t.val / 8, hb⟩ ⟨512 * (t.val % 8) + (j 1).val, hn⟩ ⟨(j 1).val, hj1⟩ ⟨(j 2).val, hj2⟩
    (fun d => blk_q V c t ⟨t.val / 8, hb⟩ rfl ⟨(j 1).val, hj1⟩ ⟨512 * (t.val % 8) + (j 1).val, hn⟩ rfl d)
    (fun j' d => blk_k V c t ⟨t.val / 8, hb⟩ rfl j' d)
    (fun j' d => blk_v V c t ⟨t.val / 8, hb⟩ rfl j' d)

/-! ## The blocks tile the output -/

/-- An index of the output is in point t's block iff each coordinate is in the block's range on its axis. -/
theorem mem_blk (t : Fin cfg1.N) (i : S4x4096x1024.Idx) :
    i ∈ ((cfg1.win 3).blk t).view.set
      ↔ ∀ a : Fin 3, win1_3.index t a * S1x512x1024.size a ≤ (i a).val
          ∧ (i a).val < win1_3.index t a * S1x512x1024.size a + S1x512x1024.size a := by
  show i ∈ ((View.whole main_v12).slice (win1_3.rect t)).set ↔ _
  rw [View.set_slice_whole, Rect.mem_set_unit]
  exact Iff.rfl

/-- Entry (b, n, e) of the output lies in the block of the point 8 b + n / 512. -/
theorem cover (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  have ht : 8 * (i 0).val + (i 1).val / 512 < cfg1.N := by rw [show cfg1.N = 32 from N_1]; omega
  refine ⟨⟨8 * (i 0).val + (i 1).val / 512, ht⟩, flush1_3 _, ?_⟩
  obtain ⟨-, -, -, -, -, -, -, -, -, e0, e1, e2⟩ := idx_facts ⟨8 * (i 0).val + (i 1).val / 512, ht⟩
  rw [mem_blk]
  intro a
  match a with
  | ⟨0, _⟩ =>
    show win1_3.index ⟨8 * (i 0).val + (i 1).val / 512, ht⟩ (0 : Fin 3) * 1 ≤ (i 0).val
      ∧ (i 0).val < win1_3.index ⟨8 * (i 0).val + (i 1).val / 512, ht⟩ (0 : Fin 3) * 1 + 1
    rw [e0]; show (8 * (i 0).val + (i 1).val / 512) / 8 * 1 ≤ (i 0).val ∧ (i 0).val < (8 * (i 0).val + (i 1).val / 512) / 8 * 1 + 1
    omega
  | ⟨1, _⟩ =>
    show win1_3.index ⟨8 * (i 0).val + (i 1).val / 512, ht⟩ (1 : Fin 3) * 512 ≤ (i 1).val
      ∧ (i 1).val < win1_3.index ⟨8 * (i 0).val + (i 1).val / 512, ht⟩ (1 : Fin 3) * 512 + 512
    rw [e1]; show (8 * (i 0).val + (i 1).val / 512) % 8 * 512 ≤ (i 1).val ∧ (i 1).val < (8 * (i 0).val + (i 1).val / 512) % 8 * 512 + 512
    omega
  | ⟨2, _⟩ =>
    show win1_3.index ⟨8 * (i 0).val + (i 1).val / 512, ht⟩ (2 : Fin 3) * 1024 ≤ (i 2).val
      ∧ (i 2).val < win1_3.index ⟨8 * (i 0).val + (i 1).val / 512, ht⟩ (2 : Fin 3) * 1024 + 1024
    rw [e2]; omega

/-! ## The output array after the region -/

/-- After the region's write-backs the output array is the attention of the three input arrays as the region finds them. -/
theorem attn_array
    (hpay : ∀ (q : Vec Ideal S1x512x1024 .bf16) (k v : Vec Ideal S1x4096x1024 .bf16) (p : Fin 512) (e : Fin 1024),
      k1_pay1 (F := Ideal) q k v (ix3 (0 : Fin 1) p e)
        = softAttn (fun j : Fin 4096 => dotRow (fun d : Fin 1024 => q (ix3 (0 : Fin 1) p d)) (fun d : Fin 1024 => k (ix3 (0 : Fin 1) j d)))
            (fun j : Fin 4096 => v (ix3 (0 : Fin 1) j e)))
    (c : Dev nD) :
    (Frame.attnDat (F := Ideal) V c).arrAt 3 cfg1.N = attnOut (V c main_v9) (V c main_v10) (V c main_v11) :=
  (Frame.attnDat (F := Ideal) V c).arrAt_eq_of_cover 3 (attnOut (V c main_v9) (V c main_v10) (V c main_v11))
    (fun t _ => flushed_eq V hpay c t) cover

/-- The same, entry by entry. -/
theorem attn_array_apply
    (hpay : ∀ (q : Vec Ideal S1x512x1024 .bf16) (k v : Vec Ideal S1x4096x1024 .bf16) (p : Fin 512) (e : Fin 1024),
      k1_pay1 (F := Ideal) q k v (ix3 (0 : Fin 1) p e)
        = softAttn (fun j : Fin 4096 => dotRow (fun d : Fin 1024 => q (ix3 (0 : Fin 1) p d)) (fun d : Fin 1024 => k (ix3 (0 : Fin 1) j d)))
            (fun j : Fin 4096 => v (ix3 (0 : Fin 1) j e)))
    (c : Dev nD) (b : Fin 4) (n : Fin 4096) (e : Fin 1024) :
    (Frame.attnDat (F := Ideal) V c).arrAt 3 cfg1.N (ix3 b n e)
      = softAttn (fun j : Fin 4096 => dotRow (fun d : Fin 1024 => V c main_v9 (ix3 b n d)) (fun d : Fin 1024 => V c main_v10 (ix3 b j d)))
          (fun j : Fin 4096 => V c main_v11 (ix3 b j e)) := by
  rw [attn_array V hpay c]
  exact attnOut_ix3 _ _ _ b n e

end

end Cert.KernelIdeal.AttnArray

end
-- ==== Proof.AttnBody.lean ====
/-
  The attention body's stored value read at one index, on the extended reals.

  The body holds a block of 512 query rows q (p, ·), all 4096 key rows k (j, ·) and value rows v (j, ·), each of
  length 1024. It forms the scores s (p, j) = ∑ d, q (p, d) * k (j, d); the row maximum m p = max over j of s (p, j),
  taken from minus infinity; the exponentials x (p, j) = exp (s (p, j) - m p); the row sums z p = ∑ j, x (p, j); the
  weights w (p, j) = x (p, j) / z p; and the output o (p, e) = ∑ j, w (p, j) * v (j, e). Each step below reads one
  operation at an index given by its coordinates; the last theorem chains them: the stored value at (0, p, e) is the
  softmax of the score row p against column e of the values.
-/
import proofs.«151214_j36215164240477_2_alg».proof.Proof.Gen.KernelIdeal.Skeleton
import proofs.«151214_j36215164240477_2_alg».proof.Proof.AttnSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.AttnBody

open Idealize.ShloMosaic Idealize.ShloMosaic.ValueIdx Cert.KernelIdeal Cert.KernelIdeal.Gen

/-! ## A column kept as a unit axis, then spread over the row -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector of one entry per row, spread along each row, reads at (p, c) its entry p. -/
theorem keepdims_apply {α : Type} {a b : ℕ} (x : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-! ## The scores: a query row against a key row -/

/-- On the query operand the scores' contraction reads row p … -/
theorem scores_lhs_0 (i : S512x4096.Idx) (c : dot_S512x1024_S4096x1024_S512x4096_1_1_0_0_n_n.contr.Idx) :
    (dot_S512x1024_S4096x1024_S512x4096_1_1_0_0_n_n.lhsIdx i c 0).val = (i 0).val := by
  unfold DotDims.lhsIdx
  rw [dif_neg (show ¬(0 : Fin S512x1024.rank) ∈ dot_S512x1024_S4096x1024_S512x4096_1_1_0_0_n_n.lhsBatch by decide),
    dif_pos (show (0 : Fin S512x1024.rank) ∈ dot_S512x1024_S4096x1024_S512x4096_1_1_0_0_n_n.lhsNonContracting by decide)]
  rfl
/-- … and on the key operand row j. -/
theorem scores_rhs_0 (i : S512x4096.Idx) (c : dot_S512x1024_S4096x1024_S512x4096_1_1_0_0_n_n.contr.Idx) :
    (dot_S512x1024_S4096x1024_S512x4096_1_1_0_0_n_n.rhsIdx i c 0).val = (i 1).val := by
  unfold DotDims.rhsIdx
  rw [dif_neg (show ¬(0 : Fin S4096x1024.rank) ∈ dot_S512x1024_S4096x1024_S512x4096_1_1_0_0_n_n.rhsBatch by decide),
    dif_pos (show (0 : Fin S4096x1024.rank) ∈ dot_S512x1024_S4096x1024_S512x4096_1_1_0_0_n_n.rhsNonContracting by decide)]
  rfl

/-- The query operand's index at output (p, j) and contraction coordinate d is (p, d). -/
theorem scores_lhs (p : Fin 512) (j : Fin 4096) (d : Fin 1024) :
    dot_S512x1024_S4096x1024_S512x4096_1_1_0_0_n_n.lhsIdx (ix2 p j)
      ((contrEquiv1 dot_S512x1024_S4096x1024_S512x4096_1_1_0_0_n_n 1024 rfl rfl).symm d) = ix2 p d :=
  funext fun a => Fin.ext (by
    match a with
    | ⟨0, _⟩ => exact scores_lhs_0 _ _
    | ⟨1, _⟩ => exact (dot_S512x1024_S4096x1024_S512x4096_1_1_0_0_n_n.lhsIdx_val_of_single rfl _ _).trans
                  (contrEquiv1_symm_val dot_S512x1024_S4096x1024_S512x4096_1_1_0_0_n_n 1024 rfl rfl d))

/-- The key operand's index at output (p, j) and contraction coordinate d is (j, d). -/
theorem scores_rhs (p : Fin 512) (j : Fin 4096) (d : Fin 1024) :
    dot_S512x1024_S4096x1024_S512x4096_1_1_0_0_n_n.rhsIdx (ix2 p j)
      ((contrEquiv1 dot_S512x1024_S4096x1024_S512x4096_1_1_0_0_n_n 1024 rfl rfl).symm d) = ix2 j d :=
  funext fun a => Fin.ext (by
    match a with
    | ⟨0, _⟩ => exact scores_rhs_0 _ _
    | ⟨1, _⟩ => exact (dot_S512x1024_S4096x1024_S512x4096_1_1_0_0_n_n.rhsIdx_val_of_single rfl _ _).trans
                  (contrEquiv1_symm_val dot_S512x1024_S4096x1024_S512x4096_1_1_0_0_n_n 1024 rfl rfl d))

/-- The product of the queries with the transposed keys, accumulated into zero, reads at (p, j) the dot product of
    query row p with key row j. -/
theorem scores_apply (q : FVec Ideal S512x1024 .bf16) (k : FVec Ideal S4096x1024 .bf16) (p : Fin 512) (j : Fin 4096) :
    matmul (F := Ideal) dot_S512x1024_S4096x1024_S512x4096_1_1_0_0_n_n none q k (constant S512x4096 .f32 0x00000000#32) (ix2 p j)
      = ∑ d : Fin 1024, q (ix2 p d) * k (ix2 j d) := by
  refine (Ideal.matmul_constant_zero_apply dot_S512x1024_S4096x1024_S512x4096_1_1_0_0_n_n none q k (ix2 p j)).trans ?_
  rw [← Equiv.sum_comp (contrEquiv1 dot_S512x1024_S4096x1024_S512x4096_1_1_0_0_n_n 1024 rfl rfl).symm]
  refine Finset.sum_congr rfl fun d _ => ?_
  rw [scores_lhs, scores_rhs]

/-! ## Reductions along a row -/

/-- Row p with column j put back is the index (p, j). -/
theorem lift_row {a b : ℕ} (h : (⟨2, ![a, b]⟩ : Shape).Reduces [1] ⟨1, ![a]⟩) (p : Fin a) (j : Fin b) :
    h.lift (ix1 p) j = ix2 p j :=
  funext fun c => Fin.ext (by
    match c with
    | ⟨0, _⟩ => rfl
    | ⟨1, _⟩ => rfl)

/-- The f32 pattern 0xFF800000 is minus infinity. -/
theorem ofBits_neg_inf_f32 : Ideal.ofBits .f32 0xFF800000#32 = (⊥ : EReal) := by
  simp [Ideal.ofBits, Ideal.ieee]

/-- A maximum along the rows of an [a, b] array, started from a pattern that denotes minus infinity, reads at p the
    maximum of row p taken from minus infinity. -/
theorem rowMax_apply {a b : ℕ} {φ : FTy} (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hbot : Ideal.ofBits φ acc = (⊥ : EReal)) (p : Fin a) :
    multiReduction .maximumf [1] ⟨1, ![a]⟩ s acc h hφ hacc (ix1 p) = Cert.AttnSpec.rowMax fun j : Fin b => s (ix2 p j) := by
  refine (Ideal.multiReduction_maximumf_single s acc h hφ hacc (ix1 p)).trans ?_
  show Finset.fold max (Ideal.ofBits φ acc) (fun j : Fin b => s (h.lift (ix1 p) j)) Finset.univ
    = Finset.fold max (⊥ : EReal) (fun j : Fin b => s (ix2 p j)) Finset.univ
  rw [hbot]
  exact congrArg (fun f : Fin b → EReal => Finset.fold max (⊥ : EReal) f Finset.univ)
    (funext fun j => congrArg s (lift_row h p j))

/-- A sum along the rows of an [a, b] array reads at p the sum of row p. -/
theorem rowSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ x acc h hφ hacc (ix1 p) = ∑ j : Fin b, x (ix2 p j) :=
  (Ideal.multiReduction_add_single x acc h hφ hacc (ix1 p)).trans
    (Finset.sum_congr rfl fun j _ => congrArg x (lift_row h p j))

/-! ## The softmax of a block of scores, entry by entry -/

/-- The exponentials: each score less its row's maximum (kept as a column and spread along the row), exponentiated. -/
theorem expRow_apply (s : FVec Ideal S512x4096 .f32) (h : S512x4096.Reduces [1] S512) (hφ : FKind.Formats .f32)
    (hacc : (0xFF800000#32 : BitVec 32) = FKind.maximumf.neutral .f32 hφ) (h₁ : S512.ShapeCasts S512x1)
    (h₂ : S512x1.Broadcasts S512x4096) (p : Fin 512) (j : Fin 4096) :
    exp (subf s (broadcastTo S512x4096 (shapeCast S512x1 (multiReduction .maximumf [1] S512 s 0xFF800000#32 h hφ hacc) h₁) h₂))
        (ix2 p j)
      = Ideal.exp (s (ix2 p j) - Cert.AttnSpec.rowMax fun j' : Fin 4096 => s (ix2 p j')) :=
  congrArg (fun m : EReal => Ideal.exp (s (ix2 p j) - m))
    ((keepdims_apply _ h₁ h₂ p j).trans (rowMax_apply s _ h hφ hacc ofBits_neg_inf_f32 p))

/-- The weights: each exponential over its row's sum (kept as a column and spread along the row); the change of format
    after the division is the identity on the extended reals. -/
theorem probs_apply (x : FVec Ideal S512x4096 .f32) (h : S512x4096.Reduces [1] S512) (hφ : FKind.Formats .f32)
    (hacc : (0x00000000#32 : BitVec 32) = FKind.add.neutral .f32 hφ) (h₁ : S512.ShapeCasts S512x1)
    (h₂ : S512x1.Broadcasts S512x4096) (hb : FTy.bits .bf16 < FTy.bits .f32) (p : Fin 512) (j : Fin 4096) :
    truncf .bf16 (divf x (broadcastTo S512x4096 (shapeCast S512x1 (multiReduction .add [1] S512 x 0x00000000#32 h hφ hacc) h₁) h₂))
        hb (ix2 p j)
      = Ideal.div (x (ix2 p j)) (∑ j' : Fin 4096, x (ix2 p j')) :=
  congrArg (fun z : EReal => Ideal.div (x (ix2 p j)) z)
    ((keepdims_apply _ h₁ h₂ p j).trans (rowSum_apply x _ h hφ hacc p))

/-! ## The output: the weights against the values -/

/-- On the weights operand the output's contraction reads row p … -/
theorem out_lhs_0 (i : S512x1024.Idx) (c : dot_S512x4096_S4096x1024_S512x1024_1_0_0_1_n_n.contr.Idx) :
    (dot_S512x4096_S4096x1024_S512x1024_1_0_0_1_n_n.lhsIdx i c 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl
/-- … and on the values operand column e. -/
theorem out_rhs_1 (i : S512x1024.Idx) (c : dot_S512x4096_S4096x1024_S512x1024_1_0_0_1_n_n.contr.Idx) :
    (dot_S512x4096_S4096x1024_S512x1024_1_0_0_1_n_n.rhsIdx i c 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The weights operand's index at output (p, e) and contraction coordinate j is (p, j). -/
theorem out_lhs (p : Fin 512) (e : Fin 1024) (j : Fin 4096) :
    dot_S512x4096_S4096x1024_S512x1024_1_0_0_1_n_n.lhsIdx (ix2 p e)
      ((contrEquiv1 dot_S512x4096_S4096x1024_S512x1024_1_0_0_1_n_n 4096 rfl rfl).symm j) = ix2 p j :=
  funext fun a => Fin.ext (by
    match a with
    | ⟨0, _⟩ => exact out_lhs_0 _ _
    | ⟨1, _⟩ => exact (dot_S512x4096_S4096x1024_S512x1024_1_0_0_1_n_n.lhsIdx_val_of_single rfl _ _).trans
                  (contrEquiv1_symm_val dot_S512x4096_S4096x1024_S512x1024_1_0_0_1_n_n 4096 rfl rfl j))

/-- The values operand's index at output (p, e) and contraction coordinate j is (j, e). -/
theorem out_rhs (p : Fin 512) (e : Fin 1024) (j : Fin 4096) :
    dot_S512x4096_S4096x1024_S512x1024_1_0_0_1_n_n.rhsIdx (ix2 p e)
      ((contrEquiv1 dot_S512x4096_S4096x1024_S512x1024_1_0_0_1_n_n 4096 rfl rfl).symm j) = ix2 j e :=
  funext fun a => Fin.ext (by
    match a with
    | ⟨0, _⟩ => exact (dot_S512x4096_S4096x1024_S512x1024_1_0_0_1_n_n.rhsIdx_val_of_single rfl _ _).trans
                  (contrEquiv1_symm_val dot_S512x4096_S4096x1024_S512x1024_1_0_0_1_n_n 4096 rfl rfl j)
    | ⟨1, _⟩ => exact out_rhs_1 _ _)

/-- The product of the weights with the values, accumulated into zero, reads at (p, e) the sum over the keys j of
    weight (p, j) times value (j, e). -/
theorem out_apply (w : FVec Ideal S512x4096 .bf16) (v : FVec Ideal S4096x1024 .bf16) (p : Fin 512) (e : Fin 1024) :
    matmul (F := Ideal) dot_S512x4096_S4096x1024_S512x1024_1_0_0_1_n_n none w v (constant S512x1024 .f32 0x00000000#32) (ix2 p e)
      = ∑ j : Fin 4096, w (ix2 p j) * v (ix2 j e) := by
  refine (Ideal.matmul_constant_zero_apply dot_S512x4096_S4096x1024_S512x1024_1_0_0_1_n_n none w v (ix2 p e)).trans ?_
  rw [← Equiv.sum_comp (contrEquiv1 dot_S512x4096_S4096x1024_S512x1024_1_0_0_1_n_n 4096 rfl rfl).symm]
  refine Finset.sum_congr rfl fun j _ => ?_
  rw [out_lhs, out_rhs]

/-! ## The body's stored value -/

/-- The block of scores: the query block against all the keys. -/
def scoreBlock (q : Vec Ideal S1x512x1024 .bf16) (k : Vec Ideal S1x4096x1024 .bf16) : FVec Ideal S512x4096 .f32 :=
  matmul (φ₁ := .bf16) (φ₂ := .bf16) dot_S512x1024_S4096x1024_S512x4096_1_1_0_0_n_n none
    (shapeCast S512x1024 q Gen.shapeCasts_S1x512x1024_S512x1024)
    (shapeCast S4096x1024 k Gen.shapeCasts_S1x4096x1024_S4096x1024)
    (constant S512x4096 .f32 0x00000000#32)

/-- The exponentials of a block of scores, each row shifted by its maximum. -/
def expBlock (s : FVec Ideal S512x4096 .f32) : FVec Ideal S512x4096 .f32 :=
  exp (subf s (broadcastTo S512x4096 (shapeCast S512x1
    (multiReduction .maximumf [1] S512 s 0xFF800000#32 Gen.reduces_S512x4096_S512 (.inl rfl) rfl)
    Gen.shapeCasts_S512_S512x1) Gen.broadcasts_S512x1_S512x4096))

/-- A block of exponentials, each row divided by its sum. -/
def probBlock (x : FVec Ideal S512x4096 .f32) : FVec Ideal S512x4096 .bf16 :=
  truncf .bf16 (divf x (broadcastTo S512x4096 (shapeCast S512x1
    (multiReduction .add [1] S512 x 0x00000000#32 Gen.reduces_S512x4096_S512 (.inl rfl) rfl)
    Gen.shapeCasts_S512_S512x1) Gen.broadcasts_S512x1_S512x4096)) Gen.bitsLt_bf16_f32

/-- The body's stored value is the weights of the scores against the values, with a unit axis put in front. -/
theorem k1_pay1_eq (q : Vec Ideal S1x512x1024 .bf16) (k v : Vec Ideal S1x4096x1024 .bf16) :
    Gen.k1_pay1 (F := Ideal) q k v
      = shapeCast S1x512x1024
          (matmul (φ₁ := .bf16) (φ₂ := .bf16) dot_S512x4096_S4096x1024_S512x1024_1_0_0_1_n_n none (probBlock (expBlock (scoreBlock q k)))
            (shapeCast S4096x1024 v Gen.shapeCasts_S1x4096x1024_S4096x1024) (constant S512x1024 .f32 0x00000000#32))
          Gen.shapeCasts_S512x1024_S1x512x1024 := rfl

/-- A score is the dot product of a query row with a key row. -/
theorem scoreBlock_apply (q : Vec Ideal S1x512x1024 .bf16) (k : Vec Ideal S1x4096x1024 .bf16) (p : Fin 512) (j : Fin 4096) :
    scoreBlock q k (ix2 p j)
      = Cert.AttnSpec.dotRow (fun d : Fin 1024 => q (ix3 (0 : Fin 1) p d)) (fun d : Fin 1024 => k (ix3 (0 : Fin 1) j d)) := by
  unfold scoreBlock Cert.AttnSpec.dotRow
  refine (scores_apply _ _ p j).trans (Finset.sum_congr rfl fun d _ => ?_)
  rw [shapeCast_1ab_ab_apply, shapeCast_1ab_ab_apply]

/-- An exponential is exp of the score less its row's maximum. -/
theorem expBlock_apply (s : FVec Ideal S512x4096 .f32) (p : Fin 512) (j : Fin 4096) :
    expBlock s (ix2 p j) = Ideal.exp (s (ix2 p j) - Cert.AttnSpec.rowMax fun j' : Fin 4096 => s (ix2 p j')) :=
  expRow_apply s _ _ _ _ _ p j

/-- A weight is the exponential over its row's sum. -/
theorem probBlock_apply (x : FVec Ideal S512x4096 .f32) (p : Fin 512) (j : Fin 4096) :
    probBlock x (ix2 p j) = Ideal.div (x (ix2 p j)) (∑ j' : Fin 4096, x (ix2 p j')) :=
  probs_apply x _ _ _ _ _ _ p j

/-- The stored value at (0, p, e): the softmax of the scores of query row p, against column e of the values. -/
theorem attn_payload_apply (q : Vec Ideal S1x512x1024 .bf16) (k v : Vec Ideal S1x4096x1024 .bf16) (p : Fin 512) (e : Fin 1024) :
    Gen.k1_pay1 (F := Ideal) q k v (ix3 (0 : Fin 1) p e)
      = Cert.AttnSpec.softAttn
          (fun j : Fin 4096 => Cert.AttnSpec.dotRow (fun d : Fin 1024 => q (ix3 (0 : Fin 1) p d)) (fun d : Fin 1024 => k (ix3 (0 : Fin 1) j d)))
          (fun j : Fin 4096 => v (ix3 (0 : Fin 1) j e)) := by
  rw [k1_pay1_eq]
  refine (shapeCast_ab_1ab_apply _ _ 0 p e).trans ?_
  refine (out_apply _ _ p e).trans ?_
  unfold Cert.AttnSpec.softAttn Cert.AttnSpec.softW
  refine Finset.sum_congr rfl fun j _ => ?_
  refine congrArg₂ (· * ·) ?_ (shapeCast_1ab_ab_apply v _ j e)
  rw [probBlock_apply]
  simp only [expBlock_apply, scoreBlock_apply]

end Cert.KernelIdeal.AttnBody

end
-- ==== Proof.KernelValue.lean ====
/-
  The idealized kernel's result array, entry by entry, as a function of the seven argument arrays. The attention region
  finds the query, key and value arrays the projection region left, reshaped to [4, 4096, 1024]; each of their entries is
  the projection of an activation row against a weight column plus a bias entry, the query's weight and bias carrying the
  scale word 1/32. The attention region leaves, at (b, n, e), the softmax of query row (b, n) against the key rows of batch
  b applied to column e of the value rows of batch b.
-/
import proofs.«151214_j36215164240477_2_alg».proof.Proof.MainRun
import proofs.«151214_j36215164240477_2_alg».proof.Proof.EntryArrays
import proofs.«151214_j36215164240477_2_alg».proof.Proof.AttnArray
import proofs.«151214_j36215164240477_2_alg».proof.Proof.AttnBody
import proofs.«151214_j36215164240477_2_alg».proof.Proof.JoinSpec

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Frame Cert.KernelIdeal.QkvArray

variable (m : (ℓ : Loc nD τ sig) → Buf (Elt Ideal) ℓ) (ρ : Dev nD → PrngReg)

/-- THE KERNEL'S RESULT at (b, n, e): the attention of the projections of the arguments, the scale word on the query side. -/
theorem result_apply (c : Dev nD) {X : S4x4096x1024.Idx → EReal} {Wq Wk Wv : S1024x1024.Idx → EReal} {bq bk bv : S1024.Idx → EReal}
    (hX : m ((c.tc : Thread nD τ).loc main_arg0) = X) (hWq : m ((c.tc : Thread nD τ).loc main_arg1) = Wq)
    (hWk : m ((c.tc : Thread nD τ).loc main_arg2) = Wk) (hWv : m ((c.tc : Thread nD τ).loc main_arg3) = Wv)
    (hbq : m ((c.tc : Thread nD τ).loc main_arg4) = bq) (hbk : m ((c.tc : Thread nD τ).loc main_arg5) = bk)
    (hbv : m ((c.tc : Thread nD τ).loc main_arg6) = bv) (b : Fin 4) (n : Fin 4096) (e : Fin 1024) :
    ((attnDat (F := Ideal) (E3 m ρ) c).arrAt 3 cfg1.N : S4x4096x1024.Idx → EReal) (ix3 b n e)
      = Cert.KernelIdeal.JoinSpec.kernelForm X Wq Wk Wv bq bk bv b n e := by
  refine (AttnArray.attn_array_apply (E3 m ρ) AttnBody.attn_payload_apply c b n e).trans ?_
  unfold Cert.KernelIdeal.JoinSpec.kernelForm
  have hs : (fun j : Fin 4096 => Cert.AttnSpec.dotRow (fun d : Fin 1024 => (E3 m ρ c main_v9 : S4x4096x1024.Idx → EReal) (ix3 b n d))
        (fun d : Fin 1024 => (E3 m ρ c main_v10 : S4x4096x1024.Idx → EReal) (ix3 b j d)))
      = fun j : Fin 4096 => Cert.AttnSpec.dotRow
        (fun e' : Fin 1024 => Cert.AttnSpec.proj (fun d : Fin 1024 => X (ix3 b n d))
          (fun d : Fin 1024 => Wq (ix2 d e') * Ideal.ofBits .f32 0x3D000000#32) (bq (ix1 e') * Ideal.ofBits .f32 0x3D000000#32))
        (fun e' : Fin 1024 => Cert.AttnSpec.proj (fun d : Fin 1024 => X (ix3 b j d)) (fun d : Fin 1024 => Wk (ix2 d e')) (bk (ix1 e'))) :=
    funext fun j => by
      rw [show (fun d : Fin 1024 => (E3 m ρ c main_v9 : S4x4096x1024.Idx → EReal) (ix3 b n d)) = _ from funext fun d => entry_query m ρ c hX hWq hbq b n d,
        show (fun d : Fin 1024 => (E3 m ρ c main_v10 : S4x4096x1024.Idx → EReal) (ix3 b j d)) = _ from funext fun d => entry_key m ρ c hX hWk hbk b j d]
  have hv : (fun j : Fin 4096 => (E3 m ρ c main_v11 : S4x4096x1024.Idx → EReal) (ix3 b j e))
      = fun j : Fin 4096 => Cert.AttnSpec.proj (fun d : Fin 1024 => X (ix3 b j d)) (fun d : Fin 1024 => Wv (ix2 d e)) (bv (ix1 e)) :=
    funext fun j => entry_value m ρ c hX hWv hbv b j e
  rw [hs, hv]

end Cert.KernelIdeal.Bridge

end
-- ==== Proof.lean ====
/-
  The five claims. The kernel program is two pallas_calls among host operations: a projection region computing the query,
  key and value arrays (the attention scale 1/32 folded into the query weight and bias on the host) and an attention region
  computing softmax(q kᵀ) v per batch and block of query rows. Its three frames and its run are proved once at any float
  instance over the library's several-region launch theorem; the reference's frame is its run with the result dropped.
  At the extended reals both programs compute, at every (batch, row, feature), the softmax-weighted sum of the value
  projections; they differ only in where the scale 1/32 = 1/sqrt(1024) multiplies the scores, which for finite inputs is
  distributivity of multiplication over the two finite sums.
-/
import proofs.«151214_j36215164240477_2_alg».proof.Defs
import proofs.«151214_j36215164240477_2_alg».proof.Proof.Gen.Kernel
import proofs.«151214_j36215164240477_2_alg».proof.Proof.Gen.KernelIdeal
import proofs.«151214_j36215164240477_2_alg».proof.Proof.Gen.ReferenceIdeal
import proofs.«151214_j36215164240477_2_alg».proof.Proof.Gen.Pre_finite_inputs
import proofs.«151214_j36215164240477_2_alg».proof.Proof.Gen.ReferenceIdeal.Run
import proofs.«151214_j36215164240477_2_alg».proof.Proof.MainRun
import proofs.«151214_j36215164240477_2_alg».proof.Proof.KMainRun
import proofs.«151214_j36215164240477_2_alg».proof.Proof.RefSpec
import proofs.«151214_j36215164240477_2_alg».proof.Proof.FiniteInputs
import proofs.«151214_j36215164240477_2_alg».proof.Proof.JoinSpec
import proofs.«151214_j36215164240477_2_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Frame.frame m ρ
/-- The idealized kernel likewise. -/
theorem frame_kernel_ideal : Cert.frame_KernelIdeal := fun m ρ _ => Cert.KernelIdeal.Frame.frame m ρ
/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- From memories agreeing on the arguments both programs run and end with equal results: the kernel's result array is, entry
    by entry, the attention of the projections with the scale on the query side; the reference's is the same with the scale
    on the scores; the inputs are finite, so the two are equal. -/
theorem algebraic : Cert.algebraic_KernelIdeal_ReferenceIdeal := by
  intro m ρ m' ρ' hpre hagree
  refine ⟨fun c => (Cert.KernelIdeal.Frame.attnDat (F := Ideal) (Cert.KernelIdeal.Frame.E3 m ρ) c).arrAt 3 Cert.KernelIdeal.cfg1.N,
    Cert.KernelIdeal.Frame.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.RefSpec.res_eq m' c, (hagree c).1, (hagree c).2.1, (hagree c).2.2.1, (hagree c).2.2.2.1,
    (hagree c).2.2.2.2.1, (hagree c).2.2.2.2.2.1, (hagree c).2.2.2.2.2.2]
  obtain ⟨h0, h1, h2, h3, h4, h5, h6⟩ := Cert.KernelIdeal.FiniteInputs.finite_of_pre m hpre c
  funext i
  obtain ⟨b, n, e, rfl⟩ : ∃ (b : Fin 4) (n : Fin 4096) (e : Fin 1024), i = ValueIdx.ix3 b n e :=
    ⟨i 0, i 1, i 2, ValueIdx.eq_ix3 i⟩
  rw [← Cert.KernelIdeal.JoinSpec.kernelForm_eq_ref _ _ _ _ _ _ _ h0 h1 h2 h3 h4 h5 h6 b n e]
  exact (Cert.KernelIdeal.Bridge.result_apply m ρ c rfl rfl rfl rfl rfl rfl rfl b n e).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
